-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x12544 : Shape := ⟨2, ![8192, 12544]⟩
abbrev S12544x1024 : Shape := ⟨2, ![12544, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S_ : Shape := ⟨0, ![]⟩

class Facts : Prop where
  bcast_S_S8192x12544 : S_.BroadcastsInDim S8192x12544 (![] : Fin 0 → Fin S8192x12544.rank)
  reducesTo_S8192x12544_S_d0_1 : S8192x12544.ReducesTo [0, 1] S_
  h_S_ : 0 < S_.numel
  bcast_S_S12544x1024 : S_.BroadcastsInDim S12544x1024 (![] : Fin 0 → Fin S12544x1024.rank)
  reducesTo_S12544x1024_S_d0_1 : S12544x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x12 : S_.BroadcastsInDim S1024x12 (![] : Fin 0 → Fin S1024x12.rank)
  reducesTo_S1024x12_S_d0_1 : S1024x12.ReducesTo [0, 1] S_
  bcast_S_S12 : S_.BroadcastsInDim S12 (![] : Fin 0 → Fin S12.rank)
  reducesTo_S12_S_d0 : S12.ReducesTo [0] S_

variable [Facts]

def fn_part2 {F : FTy → Type} [FloatOps F] (main_arg7 : FVec F S1024x12 .f32) (main_arg8 : FVec F S12 .f32) (main_v33 : IVec S_ 1) : IVec S_ 1 :=
  let main_v34 : FVec F S1024x12 .f32 := Host.absf main_arg7
  let main_cst_12 : FVec F S_ .f32 := constant S_ .f32 0x7F800000#32
  let main_v35 : FVec F S1024x12 .f32 := broadcastInDim S1024x12 ![] bcast_S_S1024x12 main_cst_12
  let main_v36 : IVec S1024x12 1 := cmpf .olt main_v34 main_v35
  let main_c_13 : IVec S_ 1 := constantI S_ 1 1#1
  let main_v37 : IVec S_ 1 := (fun x v => Host.reduce IntOp.andi x v reducesTo_S1024x12_S_d0_1 h_S_) main_v36 main_c_13
  let main_v38 : IVec S_ 1 := andi main_v33 main_v37
  let main_v39 : FVec F S12 .f32 := Host.absf main_arg8
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  main_v43

def fn_part1 {F : FTy → Type} [FloatOps F] (main_arg4 : FVec F S1024 .f32) (main_arg5 : FVec F S1024x4 .f32) (main_arg6 : FVec F S4 .f32) (main_arg7 : FVec F S1024x12 .f32) (main_arg8 : FVec F S12 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x4 .f32 := Host.absf main_arg5
  let main_cst_8 : FVec F S_ .f32 := constant S_ .f32 0x7F800000#32
  let main_v25 : FVec F S1024x4 .f32 := broadcastInDim S1024x4 ![] bcast_S_S1024x4 main_cst_8
  let main_v26 : IVec S1024x4 1 := cmpf .olt main_v24 main_v25
  let main_c_9 : IVec S_ 1 := constantI S_ 1 1#1
  let main_v27 : IVec S_ 1 := (fun x v => Host.reduce IntOp.andi x v reducesTo_S1024x4_S_d0_1 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_v33

def fn {F : FTy → Type} [FloatOps F] (main_arg0 : FVec F S8192x12544 .f32) (main_arg1 : FVec F S12544x1024 .f32) (main_arg2 : FVec F S1024 .f32) (main_arg3 : FVec F S1024x1024 .f32) (main_arg4 : FVec F S1024 .f32) (main_arg5 : FVec F S1024x4 .f32) (main_arg6 : FVec F S4 .f32) (main_arg7 : FVec F S1024x12 .f32) (main_arg8 : FVec F S12 .f32) : IVec S_ 1 :=
  let main_v0 : FVec F S8192x12544 .f32 := Host.absf main_arg0
  let main_cst : FVec F S_ .f32 := constant S_ .f32 0x7F800000#32
  let main_v1 : FVec F S8192x12544 .f32 := broadcastInDim S8192x12544 ![] bcast_S_S8192x12544 main_cst
  let main_v2 : IVec S8192x12544 1 := cmpf .olt main_v0 main_v1
  let main_c : IVec S_ 1 := constantI S_ 1 1#1
  let main_v3 : IVec S_ 1 := (fun x v => Host.reduce IntOp.andi x v reducesTo_S8192x12544_S_d0_1 h_S_) main_v2 main_c
  let main_v4 : FVec F S12544x1024 .f32 := Host.absf main_arg1
  let main_cst_0 : FVec F S_ .f32 := constant S_ .f32 0x7F800000#32
  let main_v5 : FVec F S12544x1024 .f32 := broadcastInDim S12544x1024 ![] bcast_S_S12544x1024 main_cst_0
  let main_v6 : IVec S12544x1024 1 := cmpf .olt main_v4 main_v5
  let main_c_1 : IVec S_ 1 := constantI S_ 1 1#1
  let main_v7 : IVec S_ 1 := (fun x v => Host.reduce IntOp.andi x v reducesTo_S12544x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S8192x12544 : Shape := ⟨2, ![8192, 12544]⟩
abbrev S12544x1024 : Shape := ⟨2, ![12544, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S1x1024 : Shape := ⟨2, ![1, 1024]⟩
abbrev S1x4 : Shape := ⟨2, ![1, 4]⟩
abbrev S1x12 : Shape := ⟨2, ![1, 12]⟩
abbrev S8192x128 : Shape := ⟨2, ![8192, 128]⟩
abbrev S128x12544 : Shape := ⟨2, ![128, 12544]⟩
abbrev S128x128 : Shape := ⟨2, ![128, 128]⟩
abbrev S128x1024 : Shape := ⟨2, ![128, 1024]⟩
abbrev S128x896 : Shape := ⟨2, ![128, 896]⟩
abbrev S896x1024 : Shape := ⟨2, ![896, 1024]⟩
abbrev S128x4 : Shape := ⟨2, ![128, 4]⟩
abbrev S128 : Shape := ⟨1, ![128]⟩
abbrev S128x1 : Shape := ⟨2, ![128, 1]⟩
abbrev S128x12 : Shape := ⟨2, ![128, 12]⟩
abbrev S8192x4 : Shape := ⟨2, ![8192, 4]⟩
abbrev S8192x12 : Shape := ⟨2, ![8192, 12]⟩

abbrev nBuf : Space → Nat
  | .hbm => 20
  | .vmem => 12
  | .smem => 0
  | _ => 0

abbrev bufTy : (tb : Table) → Fin (tcTables nBuf tb) → BufTy
  | .hbm, ⟨0, _⟩ => ⟨S8192x12544, .f32⟩
  | .hbm, ⟨1, _⟩ => ⟨S12544x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x12, .f32⟩
  | .hbm, ⟨8, _⟩ => ⟨S12, .f32⟩
  | .hbm, ⟨9, _⟩ => ⟨S12544x1024, .bf16⟩
  | .hbm, ⟨10, _⟩ => ⟨S1024x1024, .bf16⟩
  | .hbm, ⟨11, _⟩ => ⟨S1024x4, .bf16⟩
  | .hbm, ⟨12, _⟩ => ⟨S1024x12, .bf16⟩
  | .hbm, ⟨13, _⟩ => ⟨S1x1024, .f32⟩
  | .hbm, ⟨14, _⟩ => ⟨S1x1024, .f32⟩
  | .hbm, ⟨15, _⟩ => ⟨S1x4, .f32⟩
  | .hbm, ⟨16, _⟩ => ⟨S1x12, .f32⟩
  | .hbm, ⟨17, _⟩ => ⟨S8192x128, .f32⟩
  | .hbm, ⟨18, _⟩ => ⟨S8192x4, .f32⟩
  | .hbm, ⟨19, _⟩ => ⟨S8192x12, .f32⟩
  | .local _ .vmem, ⟨0, _⟩ => ⟨S128x12544, .f32⟩
  | .local _ .vmem, ⟨1, _⟩ => ⟨S128x12544, .f32⟩
  | .local _ .vmem, ⟨2, _⟩ => ⟨S12544x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x4, .bf16⟩
  | .local _ .vmem, ⟨7, _⟩ => ⟨S1x4, .f32⟩
  | .local _ .vmem, ⟨8, _⟩ => ⟨S1024x12, .bf16⟩
  | .local _ .vmem, ⟨9, _⟩ => ⟨S1x12, .f32⟩
  | .local _ .vmem, ⟨10, _⟩ => ⟨S128x128, .f32⟩
  | .local _ .vmem, ⟨11, _⟩ => ⟨S128x128, .f32⟩
  | _, _ => ⟨S8192x12544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c14_i32 : BitVec 32 := 14#32
  let v1 : BitVec 32 := Scalar.addi c0_i32 c14_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c896_i32 : BitVec 32 := 896#32
  let v47 : BitVec 32 := Scalar.muli arg11 c896_i32
  v47
def k0_off1 (k0_t1 : Fin k0_t1_loop.trips) : Fin 2 → Nat :=
  let c0_27 : Index := 0#32
  let c0_i32 : BitVec 32 := 0#32
  let c1_i32 : BitVec 32 := 1#32
  let arg11 : BitVec 32 := Scf.iv c0_i32 c1_i32 k0_t1
  let c896_i32 : BitVec 32 := 896#32
  let v47 : BitVec 32 := Scalar.muli arg11 c896_i32
  let v48 : BitVec 32 := v47
  let v49 : Index := Scalar.indexCast v48
  ![0, v49.toNat]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c896_i32 : BitVec 32 := 896#32
  let v47 : BitVec 32 := Scalar.muli arg11 c896_i32
  let v48 : BitVec 32 := v47
  let v52 : Index := Scalar.indexCast v48
  let c0_28 : Index := 0#32
  ![v52.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12544x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x12 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S1024_S1x1024 : S1024.ShapeCasts S1x1024
  shapeCasts_S4_S1x4 : S4.ShapeCasts S1x4
  shapeCasts_S12_S1x12 : S12.ShapeCasts S1x12
  h_S128x896 : 0 < S128x896.numel
  h_S896x1024 : 0 < S896x1024.numel
  shapeCasts_S896x1024_S896x1024 : S896x1024.ShapeCasts S896x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S128x4 : S1x4.Broadcasts S128x4
  reduces_S128x4_S128 : S128x4.Reduces [1] S128
  shapeCasts_S128_S128x1 : S128.ShapeCasts S128x1
  broadcasts_S128x1_S128x4 : S128x1.Broadcasts S128x4
  inb_S1024x12_S1024x12_0_0 : ∀ a, (![0, 0] : Fin 2 → Nat) a + S1024x12.size a ≤ S1024x12.size a
  h_S1024x12 : 0 < S1024x12.numel
  shapeCasts_S1024x12_S1024x12 : S1024x12.ShapeCasts S1024x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S128x12 : S1x12.Broadcasts S128x12
  inb_S128x128_S128x128_0_0 : ∀ a, (![0, 0] : Fin 2 → Nat) a + S128x128.size a ≤ S128x128.size a
  h_S128x128 : 0 < S128x128.numel
  inb_S128x128_S128x4_0_0 : ∀ a, (![0, 0] : Fin 2 → Nat) a + S128x4.size a ≤ S128x128.size a
  h_S128x4 : 0 < S128x4.numel
  inb_S128x128_S128x12_0_4 : ∀ a, (![0, 4] : Fin 2 → Nat) a + S128x12.size a ≤ S128x128.size a
  h_S128x12 : 0 < S128x12.numel
  slices_S8192x128_S8192x4_0_0 : S8192x128.Slices ![0, 0] S8192x4
  slices_S8192x128_S8192x12_0_4 : S8192x128.Slices ![0, 4] S8192x12
  dot_S128x896_S896x1024_S128x1024_1_0_0_1_n_n_wf : DotDims.WF S128x896 S896x1024 S128x1024 [1] [0] [0] [1] [] []
  dot_S128x1024_S1024x1024_S128x1024_1_0_0_1_n_n_wf : DotDims.WF S128x1024 S1024x1024 S128x1024 [1] [0] [0] [1] [] []
  dot_S128x1024_S1024x4_S128x4_1_0_0_1_n_n_wf : DotDims.WF S128x1024 S1024x4 S128x4 [1] [0] [0] [1] [] []
  dot_S128x1024_S1024x12_S128x12_1_0_0_1_n_n_wf : DotDims.WF S128x1024 S1024x12 S128x12 [1] [0] [0] [1] [] []
  hrank0 : 0 < grid0.rank
  k0_t1_ok : k0_t1_loop.OK
  k0_mult1_dvd : ∀ k0_t1 : Fin k0_t1_loop.trips, 896 ∣ (k0_mult1 k0_t1).toNat
  k0_off1_inb : ∀ k0_t1 : Fin k0_t1_loop.trips, ∀ a, (k0_off1 k0_t1) a + S128x896.size a ≤ S128x12544.size a
  k0_off2_inb : ∀ k0_t1 : Fin k0_t1_loop.trips, ∀ a, (k0_off2 k0_t1) a + S896x1024.size a ≤ S12544x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x12544.size a ≤ S8192x12544.size a
  hwx0_0 : ∀ i : grid0.Coords, EltTy.bits .f32 = 32 ∨ (Rect.block (s := S8192x12544) S128x12544.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12544x1024.size a ≤ S12544x1024.size a
  hwx0_1 : ∀ i : grid0.Coords, EltTy.bits .bf16 = 32 ∨ (Rect.block (s := S12544x1024) S12544x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4.size a ≤ S1024x4.size a
  hwx0_5 : ∀ i : grid0.Coords, EltTy.bits .bf16 = 32 ∨ (Rect.block (s := S1024x4) S1024x4.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4.size a ≤ S1x4.size a
  hwx0_6 : ∀ i : grid0.Coords, EltTy.bits .f32 = 32 ∨ (Rect.block (s := S1x4) S1x4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x12.size a ≤ S1024x12.size a
  hwx0_7 : ∀ i : grid0.Coords, EltTy.bits .bf16 = 32 ∨ (Rect.block (s := S1024x12) S1024x12.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x12.size a ≤ S1x12.size a
  hwx0_8 : ∀ i : grid0.Coords, EltTy.bits .f32 = 32 ∨ (Rect.block (s := S1x12) S1x12.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S8192x128.size a
  hwx0_9 : ∀ i : grid0.Coords, EltTy.bits .f32 = 32 ∨ (Rect.block (s := S8192x128) S128x128.size (cc0_transform_9 i) (hinb0_9 i)).WholeWords (EltTy.packing .f32)

variable [Facts₀]

def dot_S128x896_S896x1024_S128x1024_1_0_0_1_n_n : DotDims S128x896 S896x1024 S128x1024 where
  lhsContracting := [1]
  rhsContracting := [0]
  lhsNonContracting := [0]
  rhsNonContracting := [1]
  lhsBatch := []
  rhsBatch := []
  wf := dot_S128x896_S896x1024_S128x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x1024_S1024x4_S128x4_1_0_0_1_n_n : DotDims S128x1024 S1024x4 S128x4 where
  lhsContracting := [1]
  rhsContracting := [0]
  lhsNonContracting := [0]
  rhsNonContracting := [1]
  lhsBatch := []
  rhsBatch := []
  wf := dot_S128x1024_S1024x4_S128x4_1_0_0_1_n_n_wf
def dot_S128x1024_S1024x12_S128x12_1_0_0_1_n_n : DotDims S128x1024 S1024x12 S128x12 where
  lhsContracting := [1]
  rhsContracting := [0]
  lhsNonContracting := [0]
  rhsNonContracting := [1]
  lhsBatch := []
  rhsBatch := []
  wf := dot_S128x1024_S1024x12_S128x12_1_0_0_1_n_n_wf

abbrev win0_0 : Pipeline.Window sig grid0 :=
  Pipeline.Window.ofSpec (Memref.whole main_arg0) S128x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S12544x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x12.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x12.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S128x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x12544 : Shape := ⟨2, ![8192, 12544]⟩
abbrev S12544x1024 : Shape := ⟨2, ![12544, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x12 : Shape := ⟨2, ![1024, 12]⟩
abbrev S12 : Shape := ⟨1, ![12]⟩
abbrev S8192x1024 : Shape := ⟨2, ![8192, 1024]⟩
abbrev S1x1024 : Shape := ⟨2, ![1, 1024]⟩
abbrev S_ : Shape := ⟨0, ![]⟩
abbrev S8192x4 : Shape := ⟨2, ![8192, 4]⟩
abbrev S1x4 : Shape := ⟨2, ![1, 4]⟩
abbrev S8192 : Shape := ⟨1, ![8192]⟩
abbrev S8192x1 : Shape := ⟨2, ![8192, 1]⟩
abbrev S8192x12 : Shape := ⟨2, ![8192, 12]⟩
abbrev S1x12 : Shape := ⟨2, ![1, 12]⟩

abbrev nBuf : Space → Nat
  | .hbm => 42
  | .vmem => 0
  | .smem => 0
  | _ => 0

abbrev bufTy : (tb : Table) → Fin (tcTables nBuf tb) → BufTy
  | .hbm, ⟨0, _⟩ => ⟨S8192x12544, .f32⟩
  | .hbm, ⟨1, _⟩ => ⟨S12544x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x12, .f32⟩
  | .hbm, ⟨8, _⟩ => ⟨S12, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x4, .f32⟩
  | .hbm, ⟨21, _⟩ => ⟨S1x4, .f32⟩
  | .hbm, ⟨22, _⟩ => ⟨S8192x4, .f32⟩
  | .hbm, ⟨23, _⟩ => ⟨S8192x4, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1, .f32⟩
  | .hbm, ⟨30, _⟩ => ⟨S8192x4, .f32⟩
  | .hbm, ⟨31, _⟩ => ⟨S8192x4, .f32⟩
  | .hbm, ⟨32, _⟩ => ⟨S8192x4, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x4, .f32⟩
  | .hbm, ⟨37, _⟩ => ⟨S8192x4, .f32⟩
  | .hbm, ⟨38, _⟩ => ⟨S8192x12, .f32⟩
  | .hbm, ⟨39, _⟩ => ⟨S1x12, .f32⟩
  | .hbm, ⟨40, _⟩ => ⟨S8192x12, .f32⟩
  | .hbm, ⟨41, _⟩ => ⟨S8192x12, .f32⟩
  | _, _ => ⟨S8192x12544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  reducesTo_S8192x4_S8192_d1 : S8192x4.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4_0_1 : S8192x1.BroadcastsInDim S8192x4 (![0, 1] : Fin 2 → Fin S8192x4.rank)
  bcast_S12_S1x12_1 : S12.BroadcastsInDim S1x12 (![1] : Fin 1 → Fin S1x12.rank)
  bcast_S1x12_S8192x12_0_1 : S1x12.BroadcastsInDim S8192x12 (![0, 1] : Fin 2 → Fin S8192x12.rank)
  dot_S8192x12544_S12544x1024_S8192x1024_1_0_0_1_n_n_wf : DotDims.WF S8192x12544 S12544x1024 S8192x1024 [1] [0] [0] [1] [] []
  dot_S8192x1024_S1024x1024_S8192x1024_1_0_0_1_n_n_wf : DotDims.WF S8192x1024 S1024x1024 S8192x1024 [1] [0] [0] [1] [] []
  dot_S8192x1024_S1024x4_S8192x4_1_0_0_1_n_n_wf : DotDims.WF S8192x1024 S1024x4 S8192x4 [1] [0] [0] [1] [] []
  dot_S8192x1024_S1024x12_S8192x12_1_0_0_1_n_n_wf : DotDims.WF S8192x1024 S1024x12 S8192x12 [1] [0] [0] [1] [] []

variable [Facts₀]

def dot_S8192x12544_S12544x1024_S8192x1024_1_0_0_1_n_n : DotDims S8192x12544 S12544x1024 S8192x1024 where
  lhsContracting := [1]
  rhsContracting := [0]
  lhsNonContracting := [0]
  rhsNonContracting := [1]
  lhsBatch := []
  rhsBatch := []
  wf := dot_S8192x12544_S12544x1024_S8192x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x4_S8192x4_1_0_0_1_n_n : DotDims S8192x1024 S1024x4 S8192x4 where
  lhsContracting := [1]
  rhsContracting := [0]
  lhsNonContracting := [0]
  rhsNonContracting := [1]
  lhsBatch := []
  rhsBatch := []
  wf := dot_S8192x1024_S1024x4_S8192x4_1_0_0_1_n_n_wf
def dot_S8192x1024_S1024x12_S8192x12_1_0_0_1_n_n : DotDims S8192x1024 S1024x12 S8192x12 where
  lhsContracting := [1]
  rhsContracting := [0]
  lhsNonContracting := [0]
  rhsNonContracting := [1]
  lhsBatch := []
  rhsBatch := []
  wf := dot_S8192x1024_S1024x12_S8192x12_1_0_0_1_n_n_wf

class Facts : Prop extends Facts₀ where

variable [Facts]
-- ==== Proof.Spec.lean ====
/-
  The network on ONE row of features, over the extended reals: two affine layers (no nonlinearity between
  them), a rectifier, then two heads off the rectified vector — a softmax over four logits and an affine
  map to twelve box coordinates. Everything is a function of plain finitely-indexed families, so that a row
  of a 128-row block and a row of the whole 8192-row array are the same function of different readers.

  Also here: a sum over 12544 = 14 · 896 terms is the sum over 14 chunks of the sums over each chunk's 896
  terms, in any additive commutative monoid — a regrouping, which needs no finiteness.
-/
import Idealize.ShloMosaic.PureOps.Ideal
import Idealize.ShloMosaic.PureOps.Ideal.Laws
import Idealize.ShloMosaic.Lib.ValueIdx
import Mathlib.Algebra.BigOperators.Fin
import Mathlib.Data.Fintype.BigOperators
import Mathlib.Logic.Equiv.Fin.Basic

noncomputable section

namespace Cert.Net

open Idealize.ShloMosaic
open scoped BigOperators

/-- The two float words the programs splat, read as extended reals: `+0.0` and `-inf`. They are the same words
    on both sides, so they are carried unevaluated except where `0 + x = x` is needed. -/
abbrev zeroW : EReal := Ideal.ofBits .f32 0x00000000#32
abbrev ninfW : EReal := Ideal.ofBits .f32 0xFF800000#32

section Row

variable (x : Fin 12544 → EReal) (W1 : Fin 12544 → Fin 1024 → EReal) (b1 : Fin 1024 → EReal)
  (W2 : Fin 1024 → Fin 1024 → EReal) (b2 : Fin 1024 → EReal)
  (Wc : Fin 1024 → Fin 4 → EReal) (bc : Fin 4 → EReal)
  (Wr : Fin 1024 → Fin 12 → EReal) (br : Fin 12 → EReal)

/-- First affine layer: `x · W1 + b1`. -/
def hid1 (j : Fin 1024) : EReal := (∑ k : Fin 12544, x k * W1 k j) + b1 j

/-- Second affine layer, rectified: `max (h1 · W2 + b2) 0`. -/
def hid2 (j : Fin 1024) : EReal := max ((∑ k : Fin 1024, hid1 x W1 b1 k * W2 k j) + b2 j) zeroW

/-- The four class logits: `h2 · Wc + bc`. -/
def logit (j : Fin 4) : EReal := (∑ k : Fin 1024, hid2 x W1 b1 W2 b2 k * Wc k j) + bc j

/-- The row's largest logit, as both programs take it: the fold of `max` from `-inf` over the four logits, and once
    more against `-inf`. -/
def top : EReal := max ninfW ((Finset.univ : Finset (Fin 4)).fold max ninfW (logit x W1 b1 W2 b2 Wc bc))

/-- The shifted exponentials. -/
def expo (j : Fin 4) : EReal := Ideal.exp (logit x W1 b1 W2 b2 Wc bc j - top x W1 b1 W2 b2 Wc bc)

/-- The softmax: each shifted exponential over their sum. -/
def prob (j : Fin 4) : EReal :=
  Ideal.div (expo x W1 b1 W2 b2 Wc bc j) (∑ k : Fin 4, expo x W1 b1 W2 b2 Wc bc k)

/-- The twelve box coordinates: `h2 · Wr + br`. -/
def box (j : Fin 12) : EReal := (∑ k : Fin 1024, hid2 x W1 b1 W2 b2 k * Wr k j) + br j

end Row

/-! ## Reading rows, matrices and biases out of rank-1 and rank-2 arrays -/

section Readers
open Idealize.ShloMosaic.ValueIdx

/-- Row `r` of an `[n, b]` array. -/
abbrev rowAt {n b : ℕ} (x : (⟨2, ![n, b]⟩ : Shape).Idx → EReal) (r : Fin n) : Fin b → EReal := fun k => x (ix2 r k)
/-- An `[a, b]` array as a function of its two coordinates. -/
abbrev mat {a b : ℕ} (x : (⟨2, ![a, b]⟩ : Shape).Idx → EReal) : Fin a → Fin b → EReal := fun k j => x (ix2 k j)
/-- A `[b]` array as a function of its coordinate. -/
abbrev vec {b : ℕ} (x : (⟨1, ![b]⟩ : Shape).Idx → EReal) : Fin b → EReal := fun j => x (ix1 j)
/-- The one row of a `[1, b]` array. -/
abbrev biasRow {b : ℕ} (x : (⟨2, ![1, b]⟩ : Shape).Idx → EReal) : Fin b → EReal := fun j => x (ix2 (0 : Fin 1) j)

end Readers

/-! ## Regrouping a sum of 12544 terms into 14 chunks of 896 -/

/-- Position `k` of chunk `c` is position `896 c + k` of the whole. -/
def chunkIdx (c : Fin 14) (k : Fin 896) : Fin 12544 := ⟨896 * c.val + k.val, by have := c.isLt; have := k.isLt; omega⟩

/-- Chunk and position within it, against position in the whole: a bijection. -/
def chunkEquiv : Fin 14 × Fin 896 ≃ Fin 12544 where
  toFun p := chunkIdx p.1 p.2
  invFun i := (⟨i.val / 896, by have := i.isLt; omega⟩, ⟨i.val % 896, Nat.mod_lt _ (by decide)⟩)
  left_inv p := by
    obtain ⟨c, k⟩ := p
    have hc := c.isLt; have hk := k.isLt
    apply Prod.ext <;> apply Fin.ext <;> simp only [chunkIdx] <;> omega
  right_inv i := by
    apply Fin.ext; simp only [chunkIdx]; omega

/-- A sum over the whole is the sum over the chunks of each chunk's sum. -/
theorem sum_chunks {M : Type*} [AddCommMonoid M] (f : Fin 12544 → M) :
    ∑ c : Fin 14, ∑ k : Fin 896, f (chunkIdx c k) = ∑ i : Fin 12544, f i := by
  rw [← Fintype.sum_prod_type' (fun c k => f (chunkIdx c k))]
  exact Equiv.sum_comp chunkEquiv f

/-- A value built up from `a` by adding one term per step, for `n` steps, is `a` plus the sum of the terms. -/
theorem add_sum_range_succ {M : Type*} [AddCommMonoid M] (a : M) (g : ℕ → M) (n : ℕ) :
    (a + ∑ c ∈ Finset.range n, g c) + g n = a + ∑ c ∈ Finset.range (n + 1), g c := by
  rw [Finset.sum_range_succ, add_assoc]

end Cert.Net

end
-- ==== Proof.Products.lean ====
/-
  The body's four matrix products, each read at one entry of its result. On the extended reals a product into a zero
  accumulator is, at row `p` and column `j`, the plain sum over the contracted axis of left-row entries times
  right-column entries: no rounding and no chunk order is left in it. The contracted axis has one coordinate, so
  its index set is `Fin K`; the operand indices at `(p, j)` and `k` are `(p, k)` and `(k, j)`.
-/
import proofs.«123283_j49048526521000_2_alg».proof.Proof.Gen.KernelIdeal
import Idealize.ShloMosaic.Lib.ValueIdx
import Idealize.ShloMosaic.PureOps.Ideal.Laws

noncomputable section

namespace Cert.KernelIdeal.Products

open Idealize.ShloMosaic Idealize.ShloMosaic.ValueIdx Cert.KernelIdeal Cert.KernelIdeal.Gen
open scoped BigOperators

/-! ### one 896-wide chunk of the first layer's product: [128, 896] · [896, 1024] -/

/-- The left operand's row is the output's row, -/
theorem chunk_lhs_row (i : S128x1024.Idx) (q : dot_S128x896_S896x1024_S128x1024_1_0_0_1_n_n.contr.Idx) :
    (dot_S128x896_S896x1024_S128x1024_1_0_0_1_n_n.lhsIdx i q 0).val = (i 0).val := by
  unfold DotDims.lhsIdx
  rw [dif_neg (show ¬(0 : Fin S128x896.rank) ∈ dot_S128x896_S896x1024_S128x1024_1_0_0_1_n_n.lhsBatch by decide), dif_pos (show (0 : Fin S128x896.rank) ∈ dot_S128x896_S896x1024_S128x1024_1_0_0_1_n_n.lhsNonContracting by decide)]
  rfl

/-- and the right operand's column is the output's column. -/
theorem chunk_rhs_col (i : S128x1024.Idx) (q : dot_S128x896_S896x1024_S128x1024_1_0_0_1_n_n.contr.Idx) :
    (dot_S128x896_S896x1024_S128x1024_1_0_0_1_n_n.rhsIdx i q 1).val = (i 1).val := by
  unfold DotDims.rhsIdx
  rw [dif_neg (show ¬(1 : Fin S896x1024.rank) ∈ dot_S128x896_S896x1024_S128x1024_1_0_0_1_n_n.rhsBatch by decide), dif_pos (show (1 : Fin S896x1024.rank) ∈ dot_S128x896_S896x1024_S128x1024_1_0_0_1_n_n.rhsNonContracting by decide)]
  rfl

/-- Into the zero accumulator, at row `p` and column `j`: the sum over the 896 contracted positions `k` of the left
    operand at `(p, k)` times the right operand at `(k, j)`. -/
theorem chunk_product_apply {φ₁ φ₂ : FTy} (l : FVec Ideal S128x896 φ₁) (r : FVec Ideal S896x1024 φ₂) (p : Fin 128) (j : Fin 1024) :
    matmul dot_S128x896_S896x1024_S128x1024_1_0_0_1_n_n none l r (constant S128x1024 .f32 0x00000000#32) (ix2 p j)
      = ∑ k : Fin 896, l (ix2 p k) * r (ix2 k j) := by
  simp only [matmul]
  rw [Ideal.matmul_constant_zero_apply, ← Equiv.sum_comp (ValueIdx.contrEquiv1 dot_S128x896_S896x1024_S128x1024_1_0_0_1_n_n 896 rfl rfl).symm]
  refine Finset.sum_congr rfl fun k _ => ?_
  have hk := ValueIdx.contrEquiv1_symm_val dot_S128x896_S896x1024_S128x1024_1_0_0_1_n_n 896 rfl rfl k
  have el : dot_S128x896_S896x1024_S128x1024_1_0_0_1_n_n.lhsIdx (ix2 p j) ((ValueIdx.contrEquiv1 dot_S128x896_S896x1024_S128x1024_1_0_0_1_n_n 896 rfl rfl).symm k) = ix2 p k := funext fun a => Fin.ext (by
    match a with
    | ⟨0, _⟩ => exact chunk_lhs_row _ _
    | ⟨1, _⟩ => exact (dot_S128x896_S896x1024_S128x1024_1_0_0_1_n_n.lhsIdx_val_of_single rfl _ _).trans hk)
  have er : dot_S128x896_S896x1024_S128x1024_1_0_0_1_n_n.rhsIdx (ix2 p j) ((ValueIdx.contrEquiv1 dot_S128x896_S896x1024_S128x1024_1_0_0_1_n_n 896 rfl rfl).symm k) = ix2 k j := funext fun a => Fin.ext (by
    match a with
    | ⟨0, _⟩ => exact (dot_S128x896_S896x1024_S128x1024_1_0_0_1_n_n.rhsIdx_val_of_single rfl _ _).trans hk
    | ⟨1, _⟩ => exact chunk_rhs_col _ _)
  rw [el, er]

/-! ### the second layer's product: [128, 1024] · [1024, 1024] -/

/-- The left operand's row is the output's row, -/
theorem second_lhs_row (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl

/-- and the right operand's column is the output's column. -/
theorem second_rhs_col (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- Into the zero accumulator, at row `p` and column `j`: the sum over the 1024 contracted positions `k` of the left
    operand at `(p, k)` times the right operand at `(k, j)`. -/
theorem second_product_apply {φ₁ φ₂ : FTy} (l : FVec Ideal S128x1024 φ₁) (r : FVec Ideal S1024x1024 φ₂) (p : Fin 128) (j : Fin 1024) :
    matmul dot_S128x1024_S1024x1024_S128x1024_1_0_0_1_n_n none l r (constant S128x1024 .f32 0x00000000#32) (ix2 p j)
      = ∑ k : Fin 1024, l (ix2 p k) * r (ix2 k j) := by
  simp only [matmul]
  rw [Ideal.matmul_constant_zero_apply, ← Equiv.sum_comp (ValueIdx.contrEquiv1 dot_S128x1024_S1024x1024_S128x1024_1_0_0_1_n_n 1024 rfl rfl).symm]
  refine Finset.sum_congr rfl fun k _ => ?_
  have hk := ValueIdx.contrEquiv1_symm_val dot_S128x1024_S1024x1024_S128x1024_1_0_0_1_n_n 1024 rfl rfl k
  have el : dot_S128x1024_S1024x1024_S128x1024_1_0_0_1_n_n.lhsIdx (ix2 p j) ((ValueIdx.contrEquiv1 dot_S128x1024_S1024x1024_S128x1024_1_0_0_1_n_n 1024 rfl rfl).symm k) = ix2 p k := funext fun a => Fin.ext (by
    match a with
    | ⟨0, _⟩ => exact second_lhs_row _ _
    | ⟨1, _⟩ => exact (dot_S128x1024_S1024x1024_S128x1024_1_0_0_1_n_n.lhsIdx_val_of_single rfl _ _).trans hk)
  have er : dot_S128x1024_S1024x1024_S128x1024_1_0_0_1_n_n.rhsIdx (ix2 p j) ((ValueIdx.contrEquiv1 dot_S128x1024_S1024x1024_S128x1024_1_0_0_1_n_n 1024 rfl rfl).symm k) = ix2 k j := funext fun a => Fin.ext (by
    match a with
    | ⟨0, _⟩ => exact (dot_S128x1024_S1024x1024_S128x1024_1_0_0_1_n_n.rhsIdx_val_of_single rfl _ _).trans hk
    | ⟨1, _⟩ => exact second_rhs_col _ _)
  rw [el, er]

/-! ### the classifier head's product: [128, 1024] · [1024, 4] -/

/-- The left operand's row is the output's row, -/
theorem cls_lhs_row (i : S128x4.Idx) (q : dot_S128x1024_S1024x4_S128x4_1_0_0_1_n_n.contr.Idx) :
    (dot_S128x1024_S1024x4_S128x4_1_0_0_1_n_n.lhsIdx i q 0).val = (i 0).val := by
  unfold DotDims.lhsIdx
  rw [dif_neg (show ¬(0 : Fin S128x1024.rank) ∈ dot_S128x1024_S1024x4_S128x4_1_0_0_1_n_n.lhsBatch by decide), dif_pos (show (0 : Fin S128x1024.rank) ∈ dot_S128x1024_S1024x4_S128x4_1_0_0_1_n_n.lhsNonContracting by decide)]
  rfl

/-- and the right operand's column is the output's column. -/
theorem cls_rhs_col (i : S128x4.Idx) (q : dot_S128x1024_S1024x4_S128x4_1_0_0_1_n_n.contr.Idx) :
    (dot_S128x1024_S1024x4_S128x4_1_0_0_1_n_n.rhsIdx i q 1).val = (i 1).val := by
  unfold DotDims.rhsIdx
  rw [dif_neg (show ¬(1 : Fin S1024x4.rank) ∈ dot_S128x1024_S1024x4_S128x4_1_0_0_1_n_n.rhsBatch by decide), dif_pos (show (1 : Fin S1024x4.rank) ∈ dot_S128x1024_S1024x4_S128x4_1_0_0_1_n_n.rhsNonContracting by decide)]
  rfl

/-- Into the zero accumulator, at row `p` and column `j`: the sum over the 1024 contracted positions `k` of the left
    operand at `(p, k)` times the right operand at `(k, j)`. -/
theorem cls_product_apply {φ₁ φ₂ : FTy} (l : FVec Ideal S128x1024 φ₁) (r : FVec Ideal S1024x4 φ₂) (p : Fin 128) (j : Fin 4) :
    matmul dot_S128x1024_S1024x4_S128x4_1_0_0_1_n_n none l r (constant S128x4 .f32 0x00000000#32) (ix2 p j)
      = ∑ k : Fin 1024, l (ix2 p k) * r (ix2 k j) := by
  simp only [matmul]
  rw [Ideal.matmul_constant_zero_apply, ← Equiv.sum_comp (ValueIdx.contrEquiv1 dot_S128x1024_S1024x4_S128x4_1_0_0_1_n_n 1024 rfl rfl).symm]
  refine Finset.sum_congr rfl fun k _ => ?_
  have hk := ValueIdx.contrEquiv1_symm_val dot_S128x1024_S1024x4_S128x4_1_0_0_1_n_n 1024 rfl rfl k
  have el : dot_S128x1024_S1024x4_S128x4_1_0_0_1_n_n.lhsIdx (ix2 p j) ((ValueIdx.contrEquiv1 dot_S128x1024_S1024x4_S128x4_1_0_0_1_n_n 1024 rfl rfl).symm k) = ix2 p k := funext fun a => Fin.ext (by
    match a with
    | ⟨0, _⟩ => exact cls_lhs_row _ _
    | ⟨1, _⟩ => exact (dot_S128x1024_S1024x4_S128x4_1_0_0_1_n_n.lhsIdx_val_of_single rfl _ _).trans hk)
  have er : dot_S128x1024_S1024x4_S128x4_1_0_0_1_n_n.rhsIdx (ix2 p j) ((ValueIdx.contrEquiv1 dot_S128x1024_S1024x4_S128x4_1_0_0_1_n_n 1024 rfl rfl).symm k) = ix2 k j := funext fun a => Fin.ext (by
    match a with
    | ⟨0, _⟩ => exact (dot_S128x1024_S1024x4_S128x4_1_0_0_1_n_n.rhsIdx_val_of_single rfl _ _).trans hk
    | ⟨1, _⟩ => exact cls_rhs_col _ _)
  rw [el, er]

/-! ### the box head's product: [128, 1024] · [1024, 12] -/

/-- The left operand's row is the output's row, -/
theorem reg_lhs_row (i : S128x12.Idx) (q : dot_S128x1024_S1024x12_S128x12_1_0_0_1_n_n.contr.Idx) :
    (dot_S128x1024_S1024x12_S128x12_1_0_0_1_n_n.lhsIdx i q 0).val = (i 0).val := by
  unfold DotDims.lhsIdx
  rw [dif_neg (show ¬(0 : Fin S128x1024.rank) ∈ dot_S128x1024_S1024x12_S128x12_1_0_0_1_n_n.lhsBatch by decide), dif_pos (show (0 : Fin S128x1024.rank) ∈ dot_S128x1024_S1024x12_S128x12_1_0_0_1_n_n.lhsNonContracting by decide)]
  rfl

/-- and the right operand's column is the output's column. -/
theorem reg_rhs_col (i : S128x12.Idx) (q : dot_S128x1024_S1024x12_S128x12_1_0_0_1_n_n.contr.Idx) :
    (dot_S128x1024_S1024x12_S128x12_1_0_0_1_n_n.rhsIdx i q 1).val = (i 1).val := by
  unfold DotDims.rhsIdx
  rw [dif_neg (show ¬(1 : Fin S1024x12.rank) ∈ dot_S128x1024_S1024x12_S128x12_1_0_0_1_n_n.rhsBatch by decide), dif_pos (show (1 : Fin S1024x12.rank) ∈ dot_S128x1024_S1024x12_S128x12_1_0_0_1_n_n.rhsNonContracting by decide)]
  rfl

/-- Into the zero accumulator, at row `p` and column `j`: the sum over the 1024 contracted positions `k` of the left
    operand at `(p, k)` times the right operand at `(k, j)`. -/
theorem reg_product_apply {φ₁ φ₂ : FTy} (l : FVec Ideal S128x1024 φ₁) (r : FVec Ideal S1024x12 φ₂) (p : Fin 128) (j : Fin 12) :
    matmul dot_S128x1024_S1024x12_S128x12_1_0_0_1_n_n none l r (constant S128x12 .f32 0x00000000#32) (ix2 p j)
      = ∑ k : Fin 1024, l (ix2 p k) * r (ix2 k j) := by
  simp only [matmul]
  rw [Ideal.matmul_constant_zero_apply, ← Equiv.sum_comp (ValueIdx.contrEquiv1 dot_S128x1024_S1024x12_S128x12_1_0_0_1_n_n 1024 rfl rfl).symm]
  refine Finset.sum_congr rfl fun k _ => ?_
  have hk := ValueIdx.contrEquiv1_symm_val dot_S128x1024_S1024x12_S128x12_1_0_0_1_n_n 1024 rfl rfl k
  have el : dot_S128x1024_S1024x12_S128x12_1_0_0_1_n_n.lhsIdx (ix2 p j) ((ValueIdx.contrEquiv1 dot_S128x1024_S1024x12_S128x12_1_0_0_1_n_n 1024 rfl rfl).symm k) = ix2 p k := funext fun a => Fin.ext (by
    match a with
    | ⟨0, _⟩ => exact reg_lhs_row _ _
    | ⟨1, _⟩ => exact (dot_S128x1024_S1024x12_S128x12_1_0_0_1_n_n.lhsIdx_val_of_single rfl _ _).trans hk)
  have er : dot_S128x1024_S1024x12_S128x12_1_0_0_1_n_n.rhsIdx (ix2 p j) ((ValueIdx.contrEquiv1 dot_S128x1024_S1024x12_S128x12_1_0_0_1_n_n 1024 rfl rfl).symm k) = ix2 k j := funext fun a => Fin.ext (by
    match a with
    | ⟨0, _⟩ => exact (dot_S128x1024_S1024x12_S128x12_1_0_0_1_n_n.rhsIdx_val_of_single rfl _ _).trans hk
    | ⟨1, _⟩ => exact reg_rhs_col _ _)
  rw [el, er]

end Cert.KernelIdeal.Products

end
-- ==== Proof.ChunkLoop.lean ====
/-
  The first layer's product is accumulated inside the body by a counted loop of 14 trips. Trip `c` reads columns
  `896 c … 896 c + 895` of the 128-row feature block and rows `896 c … 896 c + 895` of the first weight matrix, and
  adds their product to the value it carries. So after all trips the carried value at `(p, j)` is the initial value plus
  the sum over the 14 chunks of each chunk's 896 products — which, regrouped, is the one sum over all 12544 positions.
-/
import proofs.«123283_j49048526521000_2_alg».proof.Proof.Gen.KernelIdeal.Frame
import proofs.«123283_j49048526521000_2_alg».proof.Proof.Spec
import proofs.«123283_j49048526521000_2_alg».proof.Proof.Products
import Idealize.ShloMosaic.Lib.Pipeline.Value
import Idealize.ShloMosaic.Lib.ValueIdx
import Idealize.ShloMosaic.PureOps.Ideal.Laws

set_option maxRecDepth 16384

noncomputable section

namespace Cert.KernelIdeal.ChunkLoop

open Idealize.ShloMosaic Idealize.ShloMosaic.TcCoe Idealize.ShloMosaic.ValueIdx Idealize.SL.Sem
open Cert.KernelIdeal Cert.KernelIdeal.Gen Cert.KernelIdeal.Products
open scoped BigOperators

/-- The loop runs 14 times. -/
theorem trips_eq : k0_t1_loop.trips = 14 := by decide +kernel

section AnyValues
variable {F : FTy → Type} [FloatOps F]

/-- ONE TRIP: from the carried value `acc`, trip `k` yields the carried value plus the product of the two blocks it
    loads — the feature buffer's and the weight buffer's contents read through the trip's two rectangles. -/
theorem trip_value (𝒱 : Variants) (c : Dev nD) (bd : Option 𝒱.V) (i : grid0.Coords) (arg1 : Memref sig .tc .vmem S128x12544 .f32) (harg1 : arg1.IsWhole) (arg2 : Memref sig .tc .vmem S12544x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x4 .bf16) (harg6 : arg6.IsWhole) (arg7 : Memref sig .tc .vmem S1x4 .f32) (harg7 : arg7.IsWhole) (arg8 : Memref sig .tc .vmem S1024x12 .bf16) (harg8 : arg8.IsWhole) (arg9 : Memref sig .tc .vmem S1x12 .f32) (harg9 : arg9.IsWhole) (arg10 : Memref sig .tc .vmem S128x128 .f32) (harg10 : arg10.IsWhole) (X_arg1 : BufTy.Contents (Elt F) arg1.view.ty) (X_arg2 : BufTy.Contents (Elt F) arg2.view.ty) (k : Fin k0_t1_loop.trips) (acc : FVec F S128x1024 .f32) :
    tripR_k0_t1 (F := F) 𝒱 c bd i arg1 harg1 arg2 harg2 arg3 harg3 arg4 harg4 arg5 harg5 arg6 harg6 arg7 harg7 arg8 harg8 arg9 harg9 arg10 harg10 X_arg1 X_arg2 k acc
      = k0_pay4 acc
          (View.ld (arg1.view.read (Elt F) X_arg1) (Rect.unit (s := S128x12544) (k0_off1 k) S128x896.size (k0_off1_inb k)))
          (View.ld (arg2.view.read (Elt F) X_arg2) (Rect.unit (s := S12544x1024) (k0_off2 k) S896x1024.size (k0_off2_inb k))) := by
  unfold tripR_k0_t1
  unfold trip_k0_t1
  dsimp only
  rfl

end AnyValues

/-! ## At the extended reals -/

/-- The chunk's payload at `(p, j)`: the carried value there plus the sum over the chunk's 896 positions `k` of the
    loaded feature block at `(p, k)` times the loaded weight block at `(k, j)` (the change of float format on the way
    into the product is the identity). -/
theorem chunk_payload_apply (acc : FVec Ideal S128x1024 .f32) (v50 : Vec Ideal S128x896 .f32) (v53 : Vec Ideal S896x1024 .bf16)
    (p : Fin 128) (j : Fin 1024) :
    k0_pay4 (F := Ideal) acc v50 v53 (ix2 p j) = acc (ix2 p j) + ∑ k : Fin 896, v50 (ix2 p k) * v53 (ix2 k j) := by
  show addf acc (matmul dot_S128x896_S896x1024_S128x1024_1_0_0_1_n_n none (truncf .bf16 v50 bitsLt_bf16_f32)
    (shapeCast S896x1024 v53 shapeCasts_S896x1024_S896x1024) (constant S128x1024 .f32 0x00000000#32)) (ix2 p j) = _
  rw [addf_apply, chunk_product_apply, shapeCast_self]
  rfl

/-- Which chunk a trip is. -/
def chunkOf (k : Fin k0_t1_loop.trips) : Fin 14 := ⟨k.val, by have h := k.isLt; have e := trips_eq; omega⟩

/-- Trip `k`'s feature rectangle read at `(p, q)` is the block at row `p`, position `q` of chunk `k`; -/
theorem feature_chunk_apply (X : Vec Ideal S128x12544 .f32) (k : Fin k0_t1_loop.trips) (p : Fin 128) (q : Fin 896) :
    View.ld X (Rect.unit (s := S128x12544) (k0_off1 k) S128x896.size (k0_off1_inb k)) (ix2 p q)
      = X (ix2 p (Net.chunkIdx (chunkOf k) q)) := by
  refine congrArg X (funext fun a => Fin.ext ?_)
  match a with
  | ⟨0, _⟩ =>
    show (k0_off1 k) 0 + 1 * p.val = p.val
    rw [k0_off1_eq k]; simp
  | ⟨1, _⟩ =>
    show (k0_off1 k) 1 + 1 * q.val = 896 * k.val + q.val
    rw [k0_off1_eq k]; simp

/-- and its weight rectangle read at `(q, j)` is the matrix at position `q` of chunk `k`, column `j`. -/
theorem weight_chunk_apply (W : Vec Ideal S12544x1024 .bf16) (k : Fin k0_t1_loop.trips) (q : Fin 896) (j : Fin 1024) :
    View.ld W (Rect.unit (s := S12544x1024) (k0_off2 k) S896x1024.size (k0_off2_inb k)) (ix2 q j)
      = W (ix2 (Net.chunkIdx (chunkOf k) q) j) := by
  refine congrArg W (funext fun a => Fin.ext ?_)
  match a with
  | ⟨0, _⟩ =>
    show (k0_off2 k) 0 + 1 * q.val = 896 * k.val + q.val
    rw [k0_off2_eq k]; simp
  | ⟨1, _⟩ =>
    show (k0_off2 k) 1 + 1 * j.val = j.val
    rw [k0_off2_eq k]; simp

/-- What chunk number `n` contributes at `(p, j)` (nothing, past the last chunk). -/
def chunkTerm (X : Vec Ideal S128x12544 .f32) (W : Vec Ideal S12544x1024 .bf16) (p : Fin 128) (j : Fin 1024) (n : ℕ) : EReal :=
  if h : n < 14 then ∑ q : Fin 896, X (ix2 p (Net.chunkIdx ⟨n, h⟩ q)) * W (ix2 (Net.chunkIdx ⟨n, h⟩ q) j) else 0

/-- THE CARRIED VALUE before trip `n`, at `(p, j)`: the initial value plus the first `n` chunks' contributions — by
    induction on the trip, one trip's value (`trip_value`) at each step. -/
theorem carried_apply (c : Dev nD) (i : grid0.Coords) (arg1 : Memref sig .tc .vmem S128x12544 .f32) (harg1 : arg1.IsWhole) (arg2 : Memref sig .tc .vmem S12544x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x4 .bf16) (harg6 : arg6.IsWhole) (arg7 : Memref sig .tc .vmem S1x4 .f32) (harg7 : arg7.IsWhole) (arg8 : Memref sig .tc .vmem S1024x12 .bf16) (harg8 : arg8.IsWhole) (arg9 : Memref sig .tc .vmem S1x12 .f32) (harg9 : arg9.IsWhole) (arg10 : Memref sig .tc .vmem S128x128 .f32) (harg10 : arg10.IsWhole)
    (x0 : Vec Ideal S128x12544 .f32) (x1 : Vec Ideal S12544x1024 .bf16) (init : FVec Ideal S128x1024 .f32)
    (p : Fin 128) (j : Fin 1024) : ∀ n : ℕ, n ≤ 14 →
    st_k0_t1 (F := Ideal) Variants.none c none i arg1 harg1 arg2 harg2 arg3 harg3 arg4 harg4 arg5 harg5 arg6 harg6 arg7 harg7 arg8 harg8 arg9 harg9 arg10 harg10 (harg1.unread x0) (harg2.unread x1) init n (ix2 p j)
      = init (ix2 p j) + ∑ n' ∈ Finset.range n, chunkTerm x0 x1 p j n'
  | 0, _ => by
    rw [Finset.range_zero, Finset.sum_empty, add_zero]; rfl
  | n + 1, hn => by
    have hlt : n < k0_t1_loop.trips := by rw [trips_eq]; omega
    have hs := st_k0_t1_succ (F := Ideal) Variants.none c none i arg1 harg1 arg2 harg2 arg3 harg3 arg4 harg4 arg5 harg5 arg6 harg6 arg7 harg7 arg8 harg8 arg9 harg9 arg10 harg10 (harg1.unread x0) (harg2.unread x1) init ⟨n, hlt⟩
    rw [show n + 1 = (⟨n, hlt⟩ : Fin k0_t1_loop.trips).val + 1 from rfl, hs, trip_value, chunk_payload_apply,
      show (⟨n, hlt⟩ : Fin k0_t1_loop.trips).val = n from rfl, carried_apply c i arg1 harg1 arg2 harg2 arg3 harg3 arg4 harg4 arg5 harg5 arg6 harg6 arg7 harg7 arg8 harg8 arg9 harg9 arg10 harg10 x0 x1 init p j n (by omega),
      harg1.read_unread, harg2.read_unread, ← Net.add_sum_range_succ]
    refine congrArg (HAdd.hAdd _) ?_
    have hn14 : n < 14 := by omega
    unfold chunkTerm
    rw [dif_pos hn14]
    refine Finset.sum_congr rfl fun q _ => ?_
    rw [feature_chunk_apply, weight_chunk_apply]
    rfl

/-- AFTER ALL 14 TRIPS, from the zero block: the carried value at `(p, j)` is the ONE sum over all 12544 positions of
    the feature block's row `p` against the weight matrix's column `j` — the chunks regrouped, and `0 + s = s`. -/
theorem accumulated_apply (c : Dev nD) (i : grid0.Coords) (arg1 : Memref sig .tc .vmem S128x12544 .f32) (harg1 : arg1.IsWhole) (arg2 : Memref sig .tc .vmem S12544x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x4 .bf16) (harg6 : arg6.IsWhole) (arg7 : Memref sig .tc .vmem S1x4 .f32) (harg7 : arg7.IsWhole) (arg8 : Memref sig .tc .vmem S1024x12 .bf16) (harg8 : arg8.IsWhole) (arg9 : Memref sig .tc .vmem S1x12 .f32) (harg9 : arg9.IsWhole) (arg10 : Memref sig .tc .vmem S128x128 .f32) (harg10 : arg10.IsWhole)
    (x0 : Vec Ideal S128x12544 .f32) (x1 : Vec Ideal S12544x1024 .bf16) (p : Fin 128) (j : Fin 1024) :
    st_k0_t1 (F := Ideal) Variants.none c none i arg1 harg1 arg2 harg2 arg3 harg3 arg4 harg4 arg5 harg5 arg6 harg6 arg7 harg7 arg8 harg8 arg9 harg9 arg10 harg10 (harg1.unread x0) (harg2.unread x1) (k0_pay3 (F := Ideal))
        (Scf.trips k0_t1_loop.lb k0_t1_loop.ub k0_t1_loop.st) (ix2 p j)
      = ∑ k : Fin 12544, x0 (ix2 p k) * x1 (ix2 k j) := by
  rw [show Scf.trips k0_t1_loop.lb k0_t1_loop.ub k0_t1_loop.st = 14 from trips_eq,
    carried_apply c i arg1 harg1 arg2 harg2 arg3 harg3 arg4 harg4 arg5 harg5 arg6 harg6 arg7 harg7 arg8 harg8 arg9 harg9 arg10 harg10 x0 x1 _ p j 14 le_rfl,
    show k0_pay3 (F := Ideal) (ix2 p j) = Ideal.ofBits .f32 0x00000000#32 from rfl, Ideal.ofBits_zero_f32, zero_add,
    Finset.sum_range, ← Net.sum_chunks (fun k => x0 (ix2 p k) * x1 (ix2 k j))]
  refine Finset.sum_congr rfl fun n _ => ?_
  unfold chunkTerm
  rw [dif_pos n.isLt]

end Cert.KernelIdeal.ChunkLoop

end
-- ==== Proof.LibColumn.lean ====
/-
  General lemmas about rank-2 vectors, at any extents.

  * Keepdims column forms: an `[a]` vector cast to `[a, 1]` reads, at `(p, u)`, the vector at `p`; an `[a, 1]`
    column broadcast to `[a, b]` reads, at `(p, q)`, the column at `(p, 0)`.
  * Inserting coordinate `k` on the reduced second axis of an `[a, b]` vector at reduced index `p` gives `(p, k)`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` vector cast to a column `[a, 1]` reads, at `(p, u)`, the vector at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Reducing the second axis of `[a, b]` to `[a]`: the reduced index `p` with coordinate `k` put back is `(p, k)`. -/
theorem lift_row {a b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

end Cert.LibColumn

end
-- ==== Proof.Layers.lean ====
/-
  The rest of the body's arithmetic, read at one entry of the 128-row block, on the extended reals: the rectified
  hidden vector, the box head, and the softmax head — each as a plain expression of entries of the loaded buffers.
  A bias is loaded as a `[1, n]` row and spread over the 128 rows, so at `(p, j)` it reads the row's entry `j`.
-/
import proofs.«123283_j49048526521000_2_alg».proof.Proof.Gen.KernelIdeal.Skeleton
import proofs.«123283_j49048526521000_2_alg».proof.Proof.Spec
import proofs.«123283_j49048526521000_2_alg».proof.Proof.Products
import proofs.«123283_j49048526521000_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layers

open Idealize.ShloMosaic Idealize.ShloMosaic.ValueIdx
open Cert.KernelIdeal Cert.KernelIdeal.Gen Cert.KernelIdeal.Products Cert.LibColumn
open scoped BigOperators

/-! ## The two reductions over a row's four logits -/

/-- The row maximum of a `[128, 4]` vector: the fold of `max` from the accumulator's word over the row's four entries. -/
theorem row_max_apply (src : FVec Ideal S128x4 .f32) (hφ : FKind.Formats .f32)
    (hacc : (0xFF800000#32 : BitVec 32) = 0xFF800000#32) (p : Fin 128) :
    multiReduction .maximumf [1] S128 src 0xFF800000#32 reduces_S128x4_S128 hφ hacc (ix1 p)
      = (Finset.univ : Finset (Fin 4)).fold max (Ideal.ofBits .f32 0xFF800000#32) (fun k => src (ix2 p k)) := by
  refine (Ideal.multiReduction_maximumf_single src 0xFF800000#32 reduces_S128x4_S128 hφ hacc (ix1 p)).trans ?_
  refine congrArg (fun g => (Finset.univ : Finset (Fin 4)).fold max (Ideal.ofBits .f32 0xFF800000#32) g) ?_
  exact funext fun k => congrArg src (lift_row reduces_S128x4_S128 p k)

/-- The row sum of a `[128, 4]` vector: the sum of the row's four entries. -/
theorem row_sum_apply (src : FVec Ideal S128x4 .f32) (hφ : FKind.Formats .f32)
    (hacc : (0x00000000#32 : BitVec 32) = 0x00000000#32) (p : Fin 128) :
    multiReduction .add [1] S128 src 0x00000000#32 reduces_S128x4_S128 hφ hacc (ix1 p) = ∑ k : Fin 4, src (ix2 p k) := by
  refine (Ideal.multiReduction_add_single src 0x00000000#32 reduces_S128x4_S128 hφ hacc (ix1 p)).trans ?_
  exact Finset.sum_congr rfl fun k _ => congrArg src (lift_row reduces_S128x4_S128 p k)

/-! ## The payloads at an entry -/

/-- THE RECTIFIED HIDDEN VECTOR at `(p, j)`: the accumulated first product plus the first bias row, times the second
    weight matrix, plus the second bias row, against zero. -/
theorem hidden_apply (v2 : FVec Ideal S128x1024 .f32) (v3 : Vec Ideal S1x1024 .f32) (v8 : Vec Ideal S1024x1024 .bf16)
    (v11 : Vec Ideal S1x1024 .f32) (p : Fin 128) (j : Fin 1024) :
    k0_pay5 (F := Ideal) v2 v3 v8 v11 (ix2 p j)
      = max ((∑ k : Fin 1024, (v2 (ix2 p k) + v3 (ix2 (0 : Fin 1) k)) * v8 (ix2 k j)) + v11 (ix2 (0 : Fin 1) j))
          (Ideal.ofBits .f32 0x00000000#32) := by
  show (truncf .bf16 (maximumf (addf (matmul dot_S128x1024_S1024x1024_S128x1024_1_0_0_1_n_n none
      (truncf .bf16 (addf v2 (broadcastTo S128x1024 (shapeCast S1x1024 v3 shapeCasts_S1x1024_S1x1024) broadcasts_S1x1024_S128x1024)) bitsLt_bf16_f32)
      (shapeCast S1024x1024 v8 shapeCasts_S1024x1024_S1024x1024) (constant S128x1024 .f32 0x00000000#32))
      (broadcastTo S128x1024 (shapeCast S1x1024 v11 shapeCasts_S1x1024_S1x1024) broadcasts_S1x1024_S128x1024))
      (broadcast S128x1024 (Scalar.ofBits .f32 0x00000000#32))) bitsLt_bf16_f32 : FVec Ideal S128x1024 .bf16) (ix2 p j) = _
  rw [truncf_apply, maximumf_apply, addf_apply, second_product_apply, shapeCast_self, shapeCast_self, shapeCast_self,
    broadcastTo_1b_ab_apply]
  simp only [truncf_apply, addf_apply, broadcastTo_1b_ab_apply, broadcast_apply]
  rfl

/-- THE BOX HEAD at `(p, q)`: the rectified hidden row times the box weights, plus the box bias. -/
theorem box_apply (v17 : FVec Ideal S128x1024 .bf16) (v36 : Vec Ideal S1024x12 .bf16) (v39 : Vec Ideal S1x12 .f32)
    (p : Fin 128) (q : Fin 12) :
    k0_pay1 (F := Ideal) v17 v36 v39 (ix2 p q) = (∑ k : Fin 1024, v17 (ix2 p k) * v36 (ix2 k q)) + v39 (ix2 (0 : Fin 1) q) := by
  show addf (matmul dot_S128x1024_S1024x12_S128x12_1_0_0_1_n_n none v17 (shapeCast S1024x12 v36 shapeCasts_S1024x12_S1024x12)
      (constant S128x12 .f32 0x00000000#32))
      (broadcastTo S128x12 (shapeCast S1x12 v39 shapeCasts_S1x12_S1x12) broadcasts_S1x12_S128x12) (ix2 p q) = _
  rw [addf_apply, reg_product_apply, shapeCast_self, shapeCast_self, broadcastTo_1b_ab_apply]

/-- The four logits of every row of the block: the rectified hidden rows times the classifier weights, plus its bias. -/
def logits (v17 : FVec Ideal S128x1024 .bf16) (v18 : FVec Ideal S1024x4 .bf16) (v21 : FVec Ideal S1x4 .f32) : FVec Ideal S128x4 .f32 :=
  addf (matmul dot_S128x1024_S1024x4_S128x4_1_0_0_1_n_n none v17 (shapeCast S1024x4 v18 shapeCasts_S1024x4_S1024x4)
    (constant S128x4 .f32 0x00000000#32))
    (broadcastTo S128x4 (shapeCast S1x4 v21 shapeCasts_S1x4_S1x4) broadcasts_S1x4_S128x4)

theorem logits_apply (v17 : FVec Ideal S128x1024 .bf16) (v18 : FVec Ideal S1024x4 .bf16) (v21 : FVec Ideal S1x4 .f32)
    (p : Fin 128) (q : Fin 4) :
    logits v17 v18 v21 (ix2 p q) = (∑ k : Fin 1024, v17 (ix2 p k) * v18 (ix2 k q)) + v21 (ix2 (0 : Fin 1) q) := by
  unfold logits
  rw [addf_apply, cls_product_apply, shapeCast_self, shapeCast_self, broadcastTo_1b_ab_apply]

/-- The body's softmax of a `[128, 4]` block of logits, row by row: each row's maximum (a fold from `-inf`, then once
    more against `-inf`) kept as a column and spread back over the row, subtracted; exponentials; each row's sum kept as
    a column and spread back; the quotient. -/
def rowSoftmax (v24 : FVec Ideal S128x4 .f32) : FVec Ideal S128x4 .f32 :=
  divf (exp (subf v24 (broadcastTo S128x4 (shapeCast S128x1
      (maximumf (broadcast S128 (Scalar.ofBits .f32 0xFF800000#32))
        (multiReduction .maximumf [1] S128 v24 0xFF800000#32 reduces_S128x4_S128 (.inl rfl) rfl))
      shapeCasts_S128_S128x1) broadcasts_S128x1_S128x4)))
    (broadcastTo S128x4 (shapeCast S128x1
      (multiReduction .add [1] S128
        (exp (subf v24 (broadcastTo S128x4 (shapeCast S128x1
          (maximumf (broadcast S128 (Scalar.ofBits .f32 0xFF800000#32))
            (multiReduction .maximumf [1] S128 v24 0xFF800000#32 reduces_S128x4_S128 (.inl rfl) rfl))
          shapeCasts_S128_S128x1) broadcasts_S128x1_S128x4)))
        0x00000000#32 reduces_S128x4_S128 (.inl rfl) rfl)
      shapeCasts_S128_S128x1) broadcasts_S128x1_S128x4)

/-- The softmax payload IS that function of the logits. -/
theorem softmax_payload_eq (v2 : FVec Ideal S128x1024 .f32) (v3 : Vec Ideal S1x1024 .f32) (v8 : Vec Ideal S1024x1024 .bf16)
    (v11 : Vec Ideal S1x1024 .f32) (v18 : Vec Ideal S1024x4 .bf16) (v21 : Vec Ideal S1x4 .f32) :
    k0_pay6 (F := Ideal) v2 v3 v8 v11 v18 v21 = rowSoftmax (logits (k0_pay5 (F := Ideal) v2 v3 v8 v11) v18 v21) := rfl

/-- A row's shifted exponential at `q`, from the row's logits. -/
def shifted (l : Fin 4 → EReal) (q : Fin 4) : EReal :=
  Ideal.exp (l q - max (Ideal.ofBits .f32 0xFF800000#32) ((Finset.univ : Finset (Fin 4)).fold max (Ideal.ofBits .f32 0xFF800000#32) l))

/-- THE SOFTMAX at `(p, q)`: row `p`'s shifted exponential at `q` over the sum of the row's four. -/
theorem rowSoftmax_apply (v24 : FVec Ideal S128x4 .f32) (p : Fin 128) (q : Fin 4) :
    rowSoftmax v24 (ix2 p q)
      = Ideal.div (shifted (fun k => v24 (ix2 p k)) q) (∑ k : Fin 4, shifted (fun k' => v24 (ix2 p k')) k) := by
  unfold rowSoftmax
  rw [divf_apply, broadcastTo_a1_ab_apply, shapeCast_a_a1_apply, row_sum_apply]
  have e : ∀ k : Fin 4,
      exp (subf v24 (broadcastTo S128x4 (shapeCast S128x1
        (maximumf (broadcast S128 (Scalar.ofBits .f32 0xFF800000#32))
          (multiReduction .maximumf [1] S128 v24 0xFF800000#32 reduces_S128x4_S128 (.inl rfl) rfl))
        shapeCasts_S128_S128x1) broadcasts_S128x1_S128x4)) (ix2 p k) = shifted (fun k' => v24 (ix2 p k')) k := by
    intro k
    show Ideal.exp (v24 (ix2 p k) - broadcastTo S128x4 (shapeCast S128x1
        (maximumf (broadcast S128 (Scalar.ofBits .f32 0xFF800000#32))
          (multiReduction .maximumf [1] S128 v24 0xFF800000#32 reduces_S128x4_S128 (.inl rfl) rfl))
        shapeCasts_S128_S128x1) broadcasts_S128x1_S128x4 (ix2 p k)) = _
    rw [broadcastTo_a1_ab_apply, shapeCast_a_a1_apply, maximumf_apply, row_max_apply]
    rfl
  simp only [e]

/-! ## Against the row-level network

  The loaded buffers of one grid point: `x0` the 128 feature rows, `x1 … x8` the two layers' and two heads' weights
  and bias rows. `acc` is the accumulated first product; all that is used of it is its row `p`. -/

section Net

variable (x0 : Vec Ideal S128x12544 .f32) (x1 : Vec Ideal S12544x1024 .bf16) (x2 : Vec Ideal S1x1024 .f32)
  (x3 : Vec Ideal S1024x1024 .bf16) (x4 : Vec Ideal S1x1024 .f32) (x5 : Vec Ideal S1024x4 .bf16) (x6 : Vec Ideal S1x4 .f32)
  (x7 : Vec Ideal S1024x12 .bf16) (x8 : Vec Ideal S1x12 .f32)
  (acc : FVec Ideal S128x1024 .f32) (p : Fin 128)
  (hacc : ∀ k : Fin 1024, acc (ix2 p k) = ∑ k' : Fin 12544, x0 (ix2 p k') * x1 (ix2 k' k))

include hacc

/-- Row `p` of the rectified hidden block is the network's rectified hidden vector of feature row `p`. -/
theorem hidden_eq_net (j : Fin 1024) :
    k0_pay5 (F := Ideal) acc x2 x3 x4 (ix2 p j)
      = Net.hid2 (Net.rowAt x0 p) (Net.mat x1) (Net.biasRow x2) (Net.mat x3) (Net.biasRow x4) j := by
  rw [hidden_apply]
  unfold Net.hid2 Net.hid1
  simp only [hacc]

/-- Row `p` of the box block is the network's box vector of feature row `p`. -/
theorem box_eq_net (q : Fin 12) :
    k0_pay1 (F := Ideal) (k0_pay5 (F := Ideal) acc x2 x3 x4) x7 x8 (ix2 p q)
      = Net.box (Net.rowAt x0 p) (Net.mat x1) (Net.biasRow x2) (Net.mat x3) (Net.biasRow x4) (Net.mat x7) (Net.biasRow x8) q := by
  rw [box_apply]
  unfold Net.box
  simp only [hidden_eq_net x0 x1 x2 x3 x4 acc p hacc]

/-- Row `p`'s four logits are the network's. -/
theorem logits_eq_net :
    (fun k : Fin 4 => logits (k0_pay5 (F := Ideal) acc x2 x3 x4) x5 x6 (ix2 p k))
      = Net.logit (Net.rowAt x0 p) (Net.mat x1) (Net.biasRow x2) (Net.mat x3) (Net.biasRow x4) (Net.mat x5) (Net.biasRow x6) := by
  funext k
  rw [logits_apply]
  unfold Net.logit
  simp only [hidden_eq_net x0 x1 x2 x3 x4 acc p hacc]

/-- Row `p` of the softmax block is the network's class probabilities of feature row `p`. -/
theorem probs_eq_net (q : Fin 4) :
    k0_pay6 (F := Ideal) acc x2 x3 x4 x5 x6 (ix2 p q)
      = Net.prob (Net.rowAt x0 p) (Net.mat x1) (Net.biasRow x2) (Net.mat x3) (Net.biasRow x4) (Net.mat x5) (Net.biasRow x6) q := by
  rw [softmax_payload_eq, rowSoftmax_apply, logits_eq_net x0 x1 x2 x3 x4 x5 x6 acc p hacc]
  rfl

end Net

end Cert.KernelIdeal.Layers

end
-- ==== Proof.BlockOut.lean ====
/-
  What one grid point leaves in the output's 128 × 128 staging block. The body makes three stores, in this order:
  zeros over the whole block; the softmax block into columns 0 … 3; the box block into columns 4 … 15. A later store
  wins where it overlaps an earlier one, so an entry of the block reads the softmax block in columns 0 … 3, the box
  block (shifted by four columns) in columns 4 … 15, and zero from column 16 on.
-/
import proofs.«123283_j49048526521000_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.BlockOut

open Idealize.ShloMosaic Idealize.ShloMosaic.TcCoe Idealize.ShloMosaic.Tactic Idealize.ShloMosaic.ValueIdx Idealize.SL.Sem
open Cert.KernelIdeal Cert.KernelIdeal.Gen

theorem zero_offsets : (![0, 0] : Fin 2 → Nat) = fun _ => 0 := funext fun a => by fin_cases a <;> rfl

/-! ## The three stores, over any payloads -/

section Stores

variable {Val : EltTy → Type} [∀ e, Nonempty (Val e)]
  (wBox : S128x12.Idx → Val .f32) (wCls : S128x4.Idx → Val .f32) (wZero : S128x128.Idx → Val .f32)

/-- Off the last store's rectangle the block reads what the earlier stores left (the rectangle named by itself, so
    that a non-membership fact is matched against it directly). -/
theorem canon_skip {S : Shape} {e : EltTy} (r : Rect S) (w : r.shape.Idx → Val e) (L : List (View.Piece Val S e)) {y : S.Idx}
    (h : y ∉ r.set) : View.canon ((⟨r, w⟩ : View.Piece Val S e) :: L) y = View.canon L y :=
  View.canon_cons_of_not_mem ⟨r, w⟩ L h

/-- The stores as pieces, last first. -/
def stores : List (View.Piece Val S128x128 .f32) :=
  [⟨Rect.unit (s := S128x128) ![0, 4] S128x12.size inb_S128x128_S128x12_0_4, wBox⟩,
   ⟨Rect.unit (s := S128x128) ![0, 0] S128x4.size inb_S128x128_S128x4_0_0, wCls⟩,
   ⟨Rect.unit (s := S128x128) ![0, 0] S128x128.size inb_S128x128_S128x128_0_0, wZero⟩]

/-- Columns 4 … 15 read the box block, four columns to the left. -/
theorem stores_box (p : Fin 128) (q : Fin 12) :
    View.canon (stores wBox wCls wZero) (ix2 p (⟨4 + q.val, by have := q.isLt; omega⟩ : Fin 128)) = wBox (ix2 p q) := by
  have he : (Rect.unit (s := S128x128) ![0, 4] S128x12.size inb_S128x128_S128x12_0_4).emb (ix2 p q)
      = ix2 p (⟨4 + q.val, by have := q.isLt; omega⟩ : Fin 128) := funext fun a => Fin.ext (by
    match a with
    | ⟨0, _⟩ => show 0 + 1 * p.val = p.val; omega
    | ⟨1, _⟩ => show 4 + 1 * q.val = 4 + q.val; omega)
  unfold stores
  rw [← he, View.canon_cons_emb]

/-- Columns 0 … 3 read the softmax block: the box store does not reach them. -/
theorem stores_cls (p : Fin 128) (q : Fin 4) :
    View.canon (stores wBox wCls wZero) (ix2 p (⟨q.val, by have := q.isLt; omega⟩ : Fin 128)) = wCls (ix2 p q) := by
  have hn : ix2 p (⟨q.val, by have := q.isLt; omega⟩ : Fin 128)
      ∉ (Rect.unit (s := S128x128) ![0, 4] S128x12.size inb_S128x128_S128x12_0_4).set := by
    rw [Rect.mem_set_unit]
    intro h
    have h1 := (h 1).1
    have hq := q.isLt
    change 4 ≤ q.val at h1
    omega
  have he : (Rect.unit (s := S128x128) ![0, 0] S128x4.size inb_S128x128_S128x4_0_0).emb (ix2 p q)
      = ix2 p (⟨q.val, by have := q.isLt; omega⟩ : Fin 128) := funext fun a => Fin.ext (by
    match a with
    | ⟨0, _⟩ => show 0 + 1 * p.val = p.val; omega
    | ⟨1, _⟩ => show 0 + 1 * q.val = q.val; omega)
  unfold stores
  rw [canon_skip _ _ _ hn, ← he, View.canon_cons_emb]

/-- From column 16 on the zero fill is all there is. -/
theorem stores_rest (p : Fin 128) (q : Fin 128) (hq : 16 ≤ q.val) :
    View.canon (stores wBox wCls wZero) (ix2 p q) = wZero (ix2 p q) := by
  have hn1 : ix2 p q ∉ (Rect.unit (s := S128x128) ![0, 4] S128x12.size inb_S128x128_S128x12_0_4).set := by
    rw [Rect.mem_set_unit]
    intro h
    have h1 := (h 1).2
    change q.val < 4 + 12 at h1
    omega
  have hn2 : ix2 p q ∉ (Rect.unit (s := S128x128) ![0, 0] S128x4.size inb_S128x128_S128x4_0_0).set := by
    rw [Rect.mem_set_unit]
    intro h
    have h1 := (h 1).2
    change q.val < 0 + 4 at h1
    omega
  unfold stores
  rw [canon_skip _ _ _ hn1, canon_skip _ _ _ hn2, View.canon_unit_zero zero_offsets]

end Stores

/-! ## The run's pieces are those stores -/

section Pieces
variable {F : FTy → Type} [FloatOps F]

/-- The accumulated first product the run carries out of the loop, over the contents of the first two buffers. -/
abbrev accumulated (c : Dev nD) (i : grid0.Coords) (arg1 : Memref sig .tc .vmem S128x12544 .f32) (harg1 : arg1.IsWhole) (arg2 : Memref sig .tc .vmem S12544x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x4 .bf16) (harg6 : arg6.IsWhole) (arg7 : Memref sig .tc .vmem S1x4 .f32) (harg7 : arg7.IsWhole) (arg8 : Memref sig .tc .vmem S1024x12 .bf16) (harg8 : arg8.IsWhole) (arg9 : Memref sig .tc .vmem S1x12 .f32) (harg9 : arg9.IsWhole) (arg10 : Memref sig .tc .vmem S128x128 .f32) (harg10 : arg10.IsWhole) (x0 : Vec F S128x12544 .f32) (x1 : Vec F S12544x1024 .bf16) : FVec F S128x1024 .f32 :=
  st_k0_t1 (F := F) Variants.none c none i arg1 harg1 arg2 harg2 arg3 harg3 arg4 harg4 arg5 harg5 arg6 harg6 arg7 harg7 arg8 harg8 arg9 harg9 arg10 harg10 (harg1.unread x0) (harg2.unread x1) (k0_pay3 (F := F))
    (Scf.trips k0_t1_loop.lb k0_t1_loop.ub k0_t1_loop.st)

/-- WHAT THE BODY LEAVES in the output's staging block: the three stores, with the box payload, the softmax payload and
    the zero block, each over the loaded buffers and the accumulated first product. -/
theorem left_eq_stores (c : Dev nD) (i : grid0.Coords) (arg1 : Memref sig .tc .vmem S128x12544 .f32) (harg1 : arg1.IsWhole) (arg2 : Memref sig .tc .vmem S12544x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x4 .bf16) (harg6 : arg6.IsWhole) (arg7 : Memref sig .tc .vmem S1x4 .f32) (harg7 : arg7.IsWhole) (arg8 : Memref sig .tc .vmem S1024x12 .bf16) (harg8 : arg8.IsWhole) (arg9 : Memref sig .tc .vmem S1x12 .f32) (harg9 : arg9.IsWhole) (arg10 : Memref sig .tc .vmem S128x128 .f32) (harg10 : arg10.IsWhole) (x0 : Vec F S128x12544 .f32) (x1 : Vec F S12544x1024 .bf16) (x2 : Vec F S1x1024 .f32) (x3 : Vec F S1024x1024 .bf16) (x4 : Vec F S1x1024 .f32) (x5 : Vec F S1024x4 .bf16) (x6 : Vec F S1x4 .f32) (x7 : Vec F S1024x12 .bf16) (x8 : Vec F S1x12 .f32) :
    out0_A_9 (F := F) c i arg1 harg1 arg2 harg2 arg3 harg3 arg4 harg4 arg5 harg5 arg6 harg6 arg7 harg7 arg8 harg8 arg9 harg9 arg10 harg10 x0 x1 x2 x3 x4 x5 x6 x7 x8
      = View.canon (stores (Val := Elt F)
          (k0_pay1 (k0_pay5 (accumulated c i arg1 harg1 arg2 harg2 arg3 harg3 arg4 harg4 arg5 harg5 arg6 harg6 arg7 harg7 arg8 harg8 arg9 harg9 arg10 harg10 x0 x1) x2 x3 x4) x7 x8)
          (k0_pay6 (accumulated c i arg1 harg1 arg2 harg2 arg3 harg3 arg4 harg4 arg5 harg5 arg6 harg6 arg7 harg7 arg8 harg8 arg9 harg9 arg10 harg10 x0 x1) x2 x3 x4 x5 x6)
          (k0_pay2 (F := F))) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5 x6 x7 x8)]
  unfold kernelRun0_A
  dsimp only
  sl_unfold_words
  simp only [View.readAt_eq_ld, harg3.read_unread, harg4.read_unread, harg5.read_unread, harg6.read_unread, harg7.read_unread,
    harg8.read_unread, harg9.read_unread, View.ld_unit_zero (S := S1x1024) zero_offsets, View.ld_unit_zero (S := S1024x1024) zero_offsets,
    View.ld_unit_zero (S := S1024x4) zero_offsets, View.ld_unit_zero (S := S1x4) zero_offsets,
    View.ld_unit_zero (S := S1024x12) zero_offsets, View.ld_unit_zero (S := S1x12) zero_offsets]
  rfl

end Pieces

end Cert.KernelIdeal.BlockOut

end
-- ==== Proof.WindowBlocks.lean ====
/-
  What each window's block holds at grid point `t`, in terms of the arguments as launched.

  * The feature window moves with the grid: its block at point `t` is rows `128 t … 128 t + 127` of the feature array.
  * The eight other input windows never move: each block is its whole array. Those arrays are written by the host before
    the region: the four weight matrices narrowed in float format (the identity on extended reals), and the four biases
    reshaped from `[n]` to one row `[1, n]`.
  * The output window moves with the grid like the feature window: block `t` is rows `128 t … 128 t + 127`.
-/
import proofs.«123283_j49048526521000_2_alg».proof.Proof.Gen.KernelIdeal.Frame
import proofs.«123283_j49048526521000_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.WindowBlocks

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## The printed index maps, decided once over the 64 grid points -/

/-- The feature window's block row is the point's number, its block column zero; -/
theorem index_0 : ∀ t : Fin cfg0.N, win0_0.index t (0 : Fin 2) = t.val ∧ win0_0.index t (1 : Fin 2) = 0 :=
  (by decide +kernel : ∀ t : Fin grid0.N, _)
/-- so is the output window's; -/
theorem index_9 : ∀ t : Fin cfg0.N, win0_9.index t (0 : Fin 2) = t.val ∧ win0_9.index t (1 : Fin 2) = 0 :=
  (by decide +kernel : ∀ t : Fin grid0.N, _)
/-- and the eight resident windows' block indices are zero at every point. -/
theorem index_1 : ∀ t : Fin cfg0.N, win0_1.index t (0 : Fin 2) = 0 ∧ win0_1.index t (1 : Fin 2) = 0 :=
  (by decide +kernel : ∀ t : Fin grid0.N, _)
theorem index_2 : ∀ t : Fin cfg0.N, win0_2.index t (0 : Fin 2) = 0 ∧ win0_2.index t (1 : Fin 2) = 0 :=
  (by decide +kernel : ∀ t : Fin grid0.N, _)
theorem index_3 : ∀ t : Fin cfg0.N, win0_3.index t (0 : Fin 2) = 0 ∧ win0_3.index t (1 : Fin 2) = 0 :=
  (by decide +kernel : ∀ t : Fin grid0.N, _)
theorem index_4 : ∀ t : Fin cfg0.N, win0_4.index t (0 : Fin 2) = 0 ∧ win0_4.index t (1 : Fin 2) = 0 :=
  (by decide +kernel : ∀ t : Fin grid0.N, _)
theorem index_5 : ∀ t : Fin cfg0.N, win0_5.index t (0 : Fin 2) = 0 ∧ win0_5.index t (1 : Fin 2) = 0 :=
  (by decide +kernel : ∀ t : Fin grid0.N, _)
theorem index_6 : ∀ t : Fin cfg0.N, win0_6.index t (0 : Fin 2) = 0 ∧ win0_6.index t (1 : Fin 2) = 0 :=
  (by decide +kernel : ∀ t : Fin grid0.N, _)
theorem index_7 : ∀ t : Fin cfg0.N, win0_7.index t (0 : Fin 2) = 0 ∧ win0_7.index t (1 : Fin 2) = 0 :=
  (by decide +kernel : ∀ t : Fin grid0.N, _)
theorem index_8 : ∀ t : Fin cfg0.N, win0_8.index t (0 : Fin 2) = 0 ∧ win0_8.index t (1 : Fin 2) = 0 :=
  (by decide +kernel : ∀ t : Fin grid0.N, _)

/-- Row `p` of block `t`, as a row of the whole 8192. -/
def globalRow (t : Fin cfg0.N) (p : Fin 128) : Fin 8192 :=
  ⟨128 * t.val + p.val, by have ht := t.isLt; have hN : cfg0.N = 64 := N_0; have := p.isLt; omega⟩

/-! ## The feature window -/

/-- Row `p` of the feature block at point `t` is row `128 t + p` of the feature array as launched. -/
theorem features_block (c : Dev nD) (t : Fin cfg0.N) (p : Fin 128) :
    Net.rowAt (iblk m c 0 t : Vec Ideal S128x12544 .f32) p = Net.rowAt (m ((c : Thread nD τ).loc main_arg0)) (globalRow t p) := by
  funext k
  show V m c main_arg0 (((cfg0.win 0).blk t).view.emb (ix2 p k)) = m ((c : Thread nD τ).loc main_arg0) (ix2 (globalRow t p) k)
  obtain ⟨e0, e1⟩ := index_0 t
  have he : ((cfg0.win 0).blk t).view.emb (ix2 p k) = ix2 (globalRow t p) k := funext fun ax => Fin.ext (by
    match ax with
    | ⟨0, _⟩ => show win0_0.index t (0 : Fin 2) * 128 + 1 * p.val = 128 * t.val + p.val; rw [e0]; omega
    | ⟨1, _⟩ => show win0_0.index t (1 : Fin 2) * 12544 + 1 * k.val = k.val; rw [e1]; omega)
  rw [he, V_main_arg0]

/-! ## The four weight matrices -/

/-- The host writes `main_v0` as `main_arg1` narrowed in float format: the same extended reals. -/
theorem weights1_host (c : Dev nD) :
    (V m c main_v0 : S12544x1024.Idx → EReal) = fun i => m ((c : Thread nD τ).loc main_arg1) i := by
  show StableHlo.after hostOps0 (fun b => m (c, b)) (Proc.devRef .tc main_v0) = _
  after_results
  rfl

/-- Window 1's block at any point is that whole matrix. -/
theorem weights1_block (c : Dev nD) (t : Fin cfg0.N) :
    Net.mat (iblk m c 1 t : Vec Ideal S12544x1024 .bf16) = Net.mat (m ((c : Thread nD τ).loc main_arg1)) := by
  funext k j
  show V m c main_v0 (((cfg0.win 1).blk t).view.emb (ix2 k j)) = m ((c : Thread nD τ).loc main_arg1) (ix2 k j)
  obtain ⟨e0, e1⟩ := index_1 t
  have he : ((cfg0.win 1).blk t).view.emb (ix2 k j) = ix2 k j := funext fun ax => Fin.ext (by
    match ax with
    | ⟨0, _⟩ => show win0_1.index t (0 : Fin 2) * 12544 + 1 * k.val = k.val; rw [e0]; omega
    | ⟨1, _⟩ => show win0_1.index t (1 : Fin 2) * 1024 + 1 * j.val = j.val; rw [e1]; omega)
  rw [he, weights1_host]

/-- The host writes `main_v1` as `main_arg3` narrowed in float format: the same extended reals. -/
theorem weights2_host (c : Dev nD) :
    (V m c main_v1 : S1024x1024.Idx → EReal) = fun i => m ((c : Thread nD τ).loc main_arg3) i := by
  show StableHlo.after hostOps0 (fun b => m (c, b)) (Proc.devRef .tc main_v1) = _
  after_results
  rfl

/-- Window 3's block at any point is that whole matrix. -/
theorem weights2_block (c : Dev nD) (t : Fin cfg0.N) :
    Net.mat (iblk m c 3 t : Vec Ideal S1024x1024 .bf16) = Net.mat (m ((c : Thread nD τ).loc main_arg3)) := by
  funext k j
  show V m c main_v1 (((cfg0.win 3).blk t).view.emb (ix2 k j)) = m ((c : Thread nD τ).loc main_arg3) (ix2 k j)
  obtain ⟨e0, e1⟩ := index_3 t
  have he : ((cfg0.win 3).blk t).view.emb (ix2 k j) = ix2 k j := funext fun ax => Fin.ext (by
    match ax with
    | ⟨0, _⟩ => show win0_3.index t (0 : Fin 2) * 1024 + 1 * k.val = k.val; rw [e0]; omega
    | ⟨1, _⟩ => show win0_3.index t (1 : Fin 2) * 1024 + 1 * j.val = j.val; rw [e1]; omega)
  rw [he, weights2_host]

/-- The host writes `main_v2` as `main_arg5` narrowed in float format: the same extended reals. -/
theorem weightsCls_host (c : Dev nD) :
    (V m c main_v2 : S1024x4.Idx → EReal) = fun i => m ((c : Thread nD τ).loc main_arg5) i := by
  show StableHlo.after hostOps0 (fun b => m (c, b)) (Proc.devRef .tc main_v2) = _
  after_results
  rfl

/-- Window 5's block at any point is that whole matrix. -/
theorem weightsCls_block (c : Dev nD) (t : Fin cfg0.N) :
    Net.mat (iblk m c 5 t : Vec Ideal S1024x4 .bf16) = Net.mat (m ((c : Thread nD τ).loc main_arg5)) := by
  funext k j
  show V m c main_v2 (((cfg0.win 5).blk t).view.emb (ix2 k j)) = m ((c : Thread nD τ).loc main_arg5) (ix2 k j)
  obtain ⟨e0, e1⟩ := index_5 t
  have he : ((cfg0.win 5).blk t).view.emb (ix2 k j) = ix2 k j := funext fun ax => Fin.ext (by
    match ax with
    | ⟨0, _⟩ => show win0_5.index t (0 : Fin 2) * 1024 + 1 * k.val = k.val; rw [e0]; omega
    | ⟨1, _⟩ => show win0_5.index t (1 : Fin 2) * 4 + 1 * j.val = j.val; rw [e1]; omega)
  rw [he, weightsCls_host]

/-- The host writes `main_v3` as `main_arg7` narrowed in float format: the same extended reals. -/
theorem weightsBox_host (c : Dev nD) :
    (V m c main_v3 : S1024x12.Idx → EReal) = fun i => m ((c : Thread nD τ).loc main_arg7) i := by
  show StableHlo.after hostOps0 (fun b => m (c, b)) (Proc.devRef .tc main_v3) = _
  after_results
  rfl

/-- Window 7's block at any point is that whole matrix. -/
theorem weightsBox_block (c : Dev nD) (t : Fin cfg0.N) :
    Net.mat (iblk m c 7 t : Vec Ideal S1024x12 .bf16) = Net.mat (m ((c : Thread nD τ).loc main_arg7)) := by
  funext k j
  show V m c main_v3 (((cfg0.win 7).blk t).view.emb (ix2 k j)) = m ((c : Thread nD τ).loc main_arg7) (ix2 k j)
  obtain ⟨e0, e1⟩ := index_7 t
  have he : ((cfg0.win 7).blk t).view.emb (ix2 k j) = ix2 k j := funext fun ax => Fin.ext (by
    match ax with
    | ⟨0, _⟩ => show win0_7.index t (0 : Fin 2) * 1024 + 1 * k.val = k.val; rw [e0]; omega
    | ⟨1, _⟩ => show win0_7.index t (1 : Fin 2) * 12 + 1 * j.val = j.val; rw [e1]; omega)
  rw [he, weightsBox_host]

/-! ## The four bias rows -/

/-- The host writes `main_v4` as `main_arg2` reshaped to one row. -/
theorem bias1_host (c : Dev nD) :
    (V m c main_v4 : S1x1024.Idx → EReal) = shapeCast S1x1024 (m ((c : Thread nD τ).loc main_arg2)) shapeCasts_S1024_S1x1024 := by
  show StableHlo.after hostOps0 (fun b => m (c, b)) (Proc.devRef .tc main_v4) = _
  after_results
  rfl

/-- Window 2's block at any point is that row: entry `j` of the bias. -/
theorem bias1_block (c : Dev nD) (t : Fin cfg0.N) :
    Net.biasRow (iblk m c 2 t : Vec Ideal S1x1024 .f32) = Net.vec (m ((c : Thread nD τ).loc main_arg2)) := by
  funext j
  show V m c main_v4 (((cfg0.win 2).blk t).view.emb (ix2 (0 : Fin 1) j)) = m ((c : Thread nD τ).loc main_arg2) (ix1 j)
  obtain ⟨e0, e1⟩ := index_2 t
  have he : ((cfg0.win 2).blk t).view.emb (ix2 (0 : Fin 1) j) = ix2 (0 : Fin 1) j := funext fun ax => Fin.ext (by
    match ax with
    | ⟨0, _⟩ => show win0_2.index t (0 : Fin 2) * 1 + 1 * 0 = 0; rw [e0]
    | ⟨1, _⟩ => show win0_2.index t (1 : Fin 2) * 1024 + 1 * j.val = j.val; rw [e1]; omega)
  rw [he, bias1_host]
  exact shapeCast_a_1a_apply _ _ (0 : Fin 1) j

/-- The host writes `main_v5` as `main_arg4` reshaped to one row. -/
theorem bias2_host (c : Dev nD) :
    (V m c main_v5 : S1x1024.Idx → EReal) = shapeCast S1x1024 (m ((c : Thread nD τ).loc main_arg4)) shapeCasts_S1024_S1x1024 := by
  show StableHlo.after hostOps0 (fun b => m (c, b)) (Proc.devRef .tc main_v5) = _
  after_results
  rfl

/-- Window 4's block at any point is that row: entry `j` of the bias. -/
theorem bias2_block (c : Dev nD) (t : Fin cfg0.N) :
    Net.biasRow (iblk m c 4 t : Vec Ideal S1x1024 .f32) = Net.vec (m ((c : Thread nD τ).loc main_arg4)) := by
  funext j
  show V m c main_v5 (((cfg0.win 4).blk t).view.emb (ix2 (0 : Fin 1) j)) = m ((c : Thread nD τ).loc main_arg4) (ix1 j)
  obtain ⟨e0, e1⟩ := index_4 t
  have he : ((cfg0.win 4).blk t).view.emb (ix2 (0 : Fin 1) j) = ix2 (0 : Fin 1) j := funext fun ax => Fin.ext (by
    match ax with
    | ⟨0, _⟩ => show win0_4.index t (0 : Fin 2) * 1 + 1 * 0 = 0; rw [e0]
    | ⟨1, _⟩ => show win0_4.index t (1 : Fin 2) * 1024 + 1 * j.val = j.val; rw [e1]; omega)
  rw [he, bias2_host]
  exact shapeCast_a_1a_apply _ _ (0 : Fin 1) j

/-- The host writes `main_v6` as `main_arg6` reshaped to one row. -/
theorem biasCls_host (c : Dev nD) :
    (V m c main_v6 : S1x4.Idx → EReal) = shapeCast S1x4 (m ((c : Thread nD τ).loc main_arg6)) shapeCasts_S4_S1x4 := by
  show StableHlo.after hostOps0 (fun b => m (c, b)) (Proc.devRef .tc main_v6) = _
  after_results
  rfl

/-- Window 6's block at any point is that row: entry `j` of the bias. -/
theorem biasCls_block (c : Dev nD) (t : Fin cfg0.N) :
    Net.biasRow (iblk m c 6 t : Vec Ideal S1x4 .f32) = Net.vec (m ((c : Thread nD τ).loc main_arg6)) := by
  funext j
  show V m c main_v6 (((cfg0.win 6).blk t).view.emb (ix2 (0 : Fin 1) j)) = m ((c : Thread nD τ).loc main_arg6) (ix1 j)
  obtain ⟨e0, e1⟩ := index_6 t
  have he : ((cfg0.win 6).blk t).view.emb (ix2 (0 : Fin 1) j) = ix2 (0 : Fin 1) j := funext fun ax => Fin.ext (by
    match ax with
    | ⟨0, _⟩ => show win0_6.index t (0 : Fin 2) * 1 + 1 * 0 = 0; rw [e0]
    | ⟨1, _⟩ => show win0_6.index t (1 : Fin 2) * 4 + 1 * j.val = j.val; rw [e1]; omega)
  rw [he, biasCls_host]
  exact shapeCast_a_1a_apply _ _ (0 : Fin 1) j

/-- The host writes `main_v7` as `main_arg8` reshaped to one row. -/
theorem biasBox_host (c : Dev nD) :
    (V m c main_v7 : S1x12.Idx → EReal) = shapeCast S1x12 (m ((c : Thread nD τ).loc main_arg8)) shapeCasts_S12_S1x12 := by
  show StableHlo.after hostOps0 (fun b => m (c, b)) (Proc.devRef .tc main_v7) = _
  after_results
  rfl

/-- Window 8's block at any point is that row: entry `j` of the bias. -/
theorem biasBox_block (c : Dev nD) (t : Fin cfg0.N) :
    Net.biasRow (iblk m c 8 t : Vec Ideal S1x12 .f32) = Net.vec (m ((c : Thread nD τ).loc main_arg8)) := by
  funext j
  show V m c main_v7 (((cfg0.win 8).blk t).view.emb (ix2 (0 : Fin 1) j)) = m ((c : Thread nD τ).loc main_arg8) (ix1 j)
  obtain ⟨e0, e1⟩ := index_8 t
  have he : ((cfg0.win 8).blk t).view.emb (ix2 (0 : Fin 1) j) = ix2 (0 : Fin 1) j := funext fun ax => Fin.ext (by
    match ax with
    | ⟨0, _⟩ => show win0_8.index t (0 : Fin 2) * 1 + 1 * 0 = 0; rw [e0]
    | ⟨1, _⟩ => show win0_8.index t (1 : Fin 2) * 12 + 1 * j.val = j.val; rw [e1]; omega)
  rw [he, biasBox_host]
  exact shapeCast_a_1a_apply _ _ (0 : Fin 1) j

/-! ## The output window -/

/-- Entry `(p, q)` of the output block at point `t` is entry `(128 t + p, q)` of the output array. -/
theorem output_emb (t : Fin cfg0.N) (p : Fin 128) (q : Fin 128) :
    ((cfg0.win 9).blk t).view.emb (ix2 p q) = (ix2 (globalRow t p) q : S8192x128.Idx) := by
  obtain ⟨e0, e1⟩ := index_9 t
  exact funext fun ax => Fin.ext (by
    match ax with
    | ⟨0, _⟩ => show win0_9.index t (0 : Fin 2) * 128 + 1 * p.val = 128 * t.val + p.val; rw [e0]; omega
    | ⟨1, _⟩ => show win0_9.index t (1 : Fin 2) * 128 + 1 * q.val = q.val; rw [e1]; omega)

end Cert.KernelIdeal.WindowBlocks

end
-- ==== Proof.KernelValue.lean ====
/-
  The kernel's two results as functions of the arguments.

  What grid point `t` writes back is rows `128 t … 128 t + 127` of ONE 8192 × 128 array: in row `r`, the network's four
  class probabilities of feature row `r`, then its twelve box coordinates, then zeros. The 64 blocks cover the array
  (row `r` is in block `r / 128`), so that array is what the output holds after the region; the host then slices
  columns 0 … 3 and 4 … 15 out of it.
-/
import proofs.«123283_j49048526521000_2_alg».proof.Proof.Gen.KernelIdeal.Frame
import proofs.«123283_j49048526521000_2_alg».proof.Proof.Spec
import proofs.«123283_j49048526521000_2_alg».proof.Proof.ChunkLoop
import proofs.«123283_j49048526521000_2_alg».proof.Proof.Layers
import proofs.«123283_j49048526521000_2_alg».proof.Proof.BlockOut
import proofs.«123283_j49048526521000_2_alg».proof.Proof.WindowBlocks
import Idealize.ShloMosaic.Lib.Pipeline.Value
import Idealize.ShloMosaic.Lib.ValueIdx
import Idealize.ShloMosaic.Lib.StableHlo.Run

set_option maxRecDepth 16384

noncomputable section

namespace Cert.KernelIdeal.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.WindowBlocks Cert.KernelIdeal.BlockOut

variable (m : (ℓ : Loc nD τ sig) → Buf (Elt Ideal) ℓ) (ρ : Dev nD → PrngReg)

/-! ## The network over the arguments as launched -/

/-- Class probability `q` of feature row `r`. -/
def probAt (c : Dev nD) (r : Fin 8192) (q : Fin 4) : EReal :=
  Net.prob (Net.rowAt (m ((c.tc : Thread nD τ).loc main_arg0)) r) (Net.mat (m ((c.tc : Thread nD τ).loc main_arg1))) (Net.vec (m ((c.tc : Thread nD τ).loc main_arg2)))
    (Net.mat (m ((c.tc : Thread nD τ).loc main_arg3))) (Net.vec (m ((c.tc : Thread nD τ).loc main_arg4)))
    (Net.mat (m ((c.tc : Thread nD τ).loc main_arg5))) (Net.vec (m ((c.tc : Thread nD τ).loc main_arg6))) q

/-- Box coordinate `q` of feature row `r`. -/
def boxAt (c : Dev nD) (r : Fin 8192) (q : Fin 12) : EReal :=
  Net.box (Net.rowAt (m ((c.tc : Thread nD τ).loc main_arg0)) r) (Net.mat (m ((c.tc : Thread nD τ).loc main_arg1))) (Net.vec (m ((c.tc : Thread nD τ).loc main_arg2)))
    (Net.mat (m ((c.tc : Thread nD τ).loc main_arg3))) (Net.vec (m ((c.tc : Thread nD τ).loc main_arg4)))
    (Net.mat (m ((c.tc : Thread nD τ).loc main_arg7))) (Net.vec (m ((c.tc : Thread nD τ).loc main_arg8))) q

/-- Entry `(r, q)` of the merged 128-wide output. -/
def mergedAt (c : Dev nD) (r : Fin 8192) (q : Fin 128) : EReal :=
  if h4 : q.val < 4 then probAt m c r ⟨q.val, h4⟩
  else if h16 : q.val < 16 then boxAt m c r ⟨q.val - 4, by omega⟩
  else Net.zeroW

/-- The merged output array. -/
def merged (c : Dev nD) : S8192x128.Idx → EReal := fun i => mergedAt m c (i 0) (i 1)

/-! ## What a grid point writes back -/

/-- WHAT POINT `t` WRITES BACK is block `t` of the merged array. -/
theorem flushed_eq (c : Dev nD) (t : Fin cfg0.N) :
    (dats m 0 c).flushed 9 t = ((cfg0.win 9).blk t).view.read (Elt Ideal) (merged m c) := by
  show (cfg0.win 9).cut (grid0.coords t) ((dats m 0 c).after 9 t) = _
  rw [after0_9]
  funext y
  obtain ⟨p, q, rfl⟩ : ∃ (p : Fin 128) (q : Fin 128), y = ix2 p q := ⟨y 0, y 1, eq_ix2 y⟩
  show outsAt0 m c t (ix2 p q) = merged m c (((cfg0.win 9).blk t).view.emb (ix2 p q))
  rw [output_emb]
  show _ = mergedAt m c (globalRow t p) q
  unfold outsAt0
  refine (congrFun (left_eq_stores (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) (iblk m c 8 t)) (ix2 p q)).trans ?_
  unfold mergedAt
  by_cases h4 : q.val < 4
  · rw [dif_pos h4]
    refine (stores_cls _ _ _ p (⟨q.val, h4⟩ : Fin 4)).trans ?_
    refine (Layers.probs_eq_net (iblk m c 0 t) (iblk m c 1 t) (iblk m c 2 t) (iblk m c 3 t) (iblk m c 4 t) (iblk m c 5 t) (iblk m c 6 t) (BlockOut.accumulated c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t)) p (fun k => ChunkLoop.accumulated_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) p k) (⟨q.val, h4⟩ : Fin 4)).trans ?_
    unfold probAt
    rw [features_block, weights1_block, bias1_block, weights2_block, bias2_block, weightsCls_block, biasCls_block]
  · by_cases h16 : q.val < 16
    · rw [dif_neg h4, dif_pos h16]
      have hq12 : q.val - 4 < 12 := by omega
      have e : (ix2 p q : S128x128.Idx) = ix2 p (⟨4 + (⟨q.val - 4, hq12⟩ : Fin 12).val, by show 4 + (q.val - 4) < 128; omega⟩ : Fin 128) :=
        congrArg (fun z : Fin 128 => (ix2 p z : S128x128.Idx)) (Fin.ext (by show q.val = 4 + (q.val - 4); omega))
      rw [e]
      refine (stores_box _ _ _ p (⟨q.val - 4, hq12⟩ : Fin 12)).trans ?_
      refine (Layers.box_eq_net (iblk m c 0 t) (iblk m c 1 t) (iblk m c 2 t) (iblk m c 3 t) (iblk m c 4 t) (iblk m c 7 t) (iblk m c 8 t) (BlockOut.accumulated c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t)) p (fun k => ChunkLoop.accumulated_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) p k) (⟨q.val - 4, hq12⟩ : Fin 12)).trans ?_
      unfold boxAt
      rw [features_block, weights1_block, bias1_block, weights2_block, bias2_block, weightsBox_block, biasBox_block]
    · rw [dif_neg h4, dif_neg h16]
      exact stores_rest _ _ _ p q (by omega)

/-! ## The blocks cover the array -/

/-- Row `r` of the array is in block `r / 128`. -/
theorem covered (i : S8192x128.Idx) :
    ∃ t : Fin cfg0.N, (cfg0.win 9).flush t = true ∧ i ∈ ((cfg0.win 9).blk t).view.set := by
  have hN : cfg0.N = 64 := N_0
  have hi0 : (i 0).val < 8192 := (i 0).isLt
  have hi1 : (i 1).val < 128 := (i 1).isLt
  have ht : (i 0).val / 128 < cfg0.N := by omega
  refine ⟨⟨(i 0).val / 128, ht⟩, flush0_9 _, ?_⟩
  show i ∈ ((View.whole main_v8).slice (win0_9.rect ⟨(i 0).val / 128, ht⟩)).set
  rw [View.set_slice_whole, Rect.mem_set_unit]
  obtain ⟨e0, e1⟩ := index_9 ⟨(i 0).val / 128, ht⟩
  intro a
  match a with
  | ⟨0, _⟩ =>
    show win0_9.index ⟨(i 0).val / 128, ht⟩ (0 : Fin 2) * 128 ≤ (i 0).val
      ∧ (i 0).val < win0_9.index ⟨(i 0).val / 128, ht⟩ (0 : Fin 2) * 128 + 128
    rw [e0]; dsimp only; omega
  | ⟨1, _⟩ =>
    show win0_9.index ⟨(i 0).val / 128, ht⟩ (1 : Fin 2) * 128 ≤ (i 1).val
      ∧ (i 1).val < win0_9.index ⟨(i 0).val / 128, ht⟩ (1 : Fin 2) * 128 + 128
    rw [e1]; omega

/-- THE OUTPUT ARRAY after the region is the merged array. -/
theorem final (c : Dev nD) : (dats m 0 c).arrAt 9 cfg0.N = merged m c :=
  (dats m 0 c).arrAt_eq_of_cover 9 (merged m c) (fun t _ => flushed_eq m c t) (covered)

/-! ## The host's two slices -/

/-- The kernel's first result: the class probabilities of every row. -/
def resultProbs (c : Dev nD) : S8192x4.Idx → EReal := fun i => probAt m c (i 0) (i 1)
/-- The kernel's second result: the box coordinates of every row. -/
def resultBoxes (c : Dev nD) : S8192x12.Idx → EReal := fun i => boxAt m c (i 0) (i 1)

/-- Columns 0 … 3 of the merged array are the class probabilities; -/
theorem slice_probs (c : Dev nD) :
    extractStridedSlice S8192x4 ![0, 0] (merged m c) slices_S8192x128_S8192x4_0_0 = resultProbs m c := by
  funext i
  obtain ⟨r, q, rfl⟩ : ∃ (r : Fin 8192) (q : Fin 4), i = ix2 r q := ⟨i 0, i 1, eq_ix2 i⟩
  refine (extractStridedSlice_apply ![0, 0] (merged m c) slices_S8192x128_S8192x4_0_0 (ix2 r q)
    (ix2 r (⟨q.val, by have := q.isLt; omega⟩ : Fin 128)) (fun a => by
      match a with
      | ⟨0, _⟩ => show r.val = 0 + r.val; omega
      | ⟨1, _⟩ => show q.val = 0 + q.val; omega)).trans ?_
  show mergedAt m c r ⟨q.val, _⟩ = probAt m c r q
  unfold mergedAt
  rw [dif_pos (show (⟨q.val, _⟩ : Fin 128).val < 4 from q.isLt)]

/-- columns 4 … 15 the box coordinates. -/
theorem slice_boxes (c : Dev nD) :
    extractStridedSlice S8192x12 ![0, 4] (merged m c) slices_S8192x128_S8192x12_0_4 = resultBoxes m c := by
  funext i
  obtain ⟨r, q, rfl⟩ : ∃ (r : Fin 8192) (q : Fin 12), i = ix2 r q := ⟨i 0, i 1, eq_ix2 i⟩
  refine (extractStridedSlice_apply ![0, 4] (merged m c) slices_S8192x128_S8192x12_0_4 (ix2 r q)
    (ix2 r (⟨4 + q.val, by have := q.isLt; omega⟩ : Fin 128)) (fun a => by
      match a with
      | ⟨0, _⟩ => show r.val = 0 + r.val; omega
      | ⟨1, _⟩ => show 4 + q.val = 4 + q.val; rfl)).trans ?_
  show mergedAt m c r ⟨4 + q.val, _⟩ = boxAt m c r q
  have hq := q.isLt
  unfold mergedAt
  rw [dif_neg (show ¬(⟨4 + q.val, _⟩ : Fin 128).val < 4 from by show ¬ 4 + q.val < 4; omega),
    dif_pos (show (⟨4 + q.val, _⟩ : Fin 128).val < 16 from by show 4 + q.val < 16; omega)]
  exact congrArg _ (Fin.ext (by show 4 + q.val - 4 = q.val; omega))

/-- After the host's lines that follow the region, the first result buffer holds the class probabilities, -/
theorem tail_probs (c : Dev nD) :
    Pipeline.afterTail₀ cfgs (dats m) 0 (V0 m) [hostOps1] c main_v9 = resultProbs m c := by
  unfold Pipeline.afterTail₀
  show StableHlo.after hostOps1 _ (Proc.devRef .tc main_v9) = _
  after_results
  rw [(Pipeline.withArrays_arr spec0 launch0.win.arr_inj c _ _ 9).trans (final m c)]
  exact slice_probs m c

/-- and the second the box coordinates. -/
theorem tail_boxes (c : Dev nD) :
    Pipeline.afterTail₀ cfgs (dats m) 0 (V0 m) [hostOps1] c main_v10 = resultBoxes m c := by
  unfold Pipeline.afterTail₀
  show StableHlo.after hostOps1 _ (Proc.devRef .tc main_v10) = _
  after_results
  rw [(Pipeline.withArrays_arr spec0 launch0.win.arr_inj c _ _ 9).trans (final m c)]
  exact slice_boxes m c

/-! ## The run, read -/

/-- Every weakly fair execution of the idealized kernel terminates with its two results at the network's class
    probabilities and box coordinates of the arguments as launched, and the arguments unchanged. -/
theorem run : θ_run defs (onTc (τ := τ) (main (F := Ideal))) ⟨m, fun _ => 0, ρ⟩ (fun r => ∀ c : Dev nD,
      r.2.mem ((c.tc : Thread nD τ).loc main_v9) = resultProbs m c
      ∧ r.2.mem ((c.tc : Thread nD τ).loc main_v10) = resultBoxes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v9 (Pipeline.mem_restRefs_of main_v9 (by decide) (by decide))).trans (tail_probs m c),
     ((h c).2 main_v10 (Pipeline.mem_restRefs_of main_v10 (by decide) (by decide))).trans (tail_boxes m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c),
     ((h c).2 main_arg7 (Pipeline.mem_restRefs_of main_arg7 (by decide) (by decide))).trans (W_main_arg7 m (dats m) c),
     ((h c).2 main_arg8 (Pipeline.mem_restRefs_of main_arg8 (by decide) (by decide))).trans (W_main_arg8 m (dats m) c)⟩)
    (run_main m ρ)

end Cert.KernelIdeal.KernelValue

end
-- ==== Proof.RefValue.lean ====
/-
  The reference, one stage at a time, is the row-level network: at row `r` of the 8192, each stage of its straight-line
  program reads as the network's corresponding quantity of feature row `r`. A product is the sum over its contracted
  axis; a bias is spread over the rows; the row maximum is a fold of `max` from `-inf` over the row's four logits; the
  row sum starts from `+0.0`, and `0 + s = s`.
-/
import proofs.«123283_j49048526521000_2_alg».proof.Proof.Gen.ReferenceIdeal.Read
import proofs.«123283_j49048526521000_2_alg».proof.Proof.Spec
import proofs.«123283_j49048526521000_2_alg».proof.Proof.LibColumn
import Idealize.ShloMosaic.Lib.ValueIdx
import Idealize.ShloMosaic.PureOps.Ideal.Laws
import Idealize.ShloMosaic.PureOps.Reduce

set_option maxRecDepth 16384

noncomputable section

namespace Cert.ReferenceIdeal.RefValue

open Idealize.ShloMosaic Idealize.ShloMosaic.ValueIdx
open Cert.ReferenceIdeal Cert.ReferenceIdeal.Gen Cert.ReferenceIdeal.Read Cert.LibColumn
open scoped BigOperators

variable (x0 : (⟨S8192x12544, .f32⟩ : BufTy).Contents (Elt Ideal)) (x1 : (⟨S12544x1024, .f32⟩ : BufTy).Contents (Elt Ideal)) (x2 : (⟨S1024, .f32⟩ : BufTy).Contents (Elt Ideal))
  (x3 : (⟨S1024x1024, .f32⟩ : BufTy).Contents (Elt Ideal)) (x4 : (⟨S1024, .f32⟩ : BufTy).Contents (Elt Ideal)) (x5 : (⟨S1024x4, .f32⟩ : BufTy).Contents (Elt Ideal)) (x6 : (⟨S4, .f32⟩ : BufTy).Contents (Elt Ideal))
  (x7 : (⟨S1024x12, .f32⟩ : BufTy).Contents (Elt Ideal)) (x8 : (⟨S12, .f32⟩ : BufTy).Contents (Elt Ideal))

/-! ## The stages' index maps at `(r, j)` -/

theorem lidx_v0 (r : Fin 8192) (j : Fin 1024) (k : Fin 12544) : lidx_main_v0 (ix2 r j) k = ix2 r k :=
  funext fun a => Fin.ext (by match a with | ⟨0, _⟩ => rfl | ⟨1, _⟩ => rfl)
theorem ridx_v0 (r : Fin 8192) (j : Fin 1024) (k : Fin 12544) : ridx_main_v0 (ix2 r j) k = ix2 k j :=
  funext fun a => Fin.ext (by match a with | ⟨0, _⟩ => rfl | ⟨1, _⟩ => rfl)
theorem bidx_v2 (r : Fin 8192) (j : Fin 1024) : idx_main_v1 (idx_main_v2 (ix2 r j)) = ix1 j :=
  funext fun a => Fin.ext (by match a with | ⟨0, _⟩ => rfl)
theorem lidx_v4 (r : Fin 8192) (j : Fin 1024) (k : Fin 1024) : lidx_main_v4 (ix2 r j) k = ix2 r k :=
  funext fun a => Fin.ext (by match a with | ⟨0, _⟩ => rfl | ⟨1, _⟩ => rfl)
theorem ridx_v4 (r : Fin 8192) (j : Fin 1024) (k : Fin 1024) : ridx_main_v4 (ix2 r j) k = ix2 k j :=
  funext fun a => Fin.ext (by match a with | ⟨0, _⟩ => rfl | ⟨1, _⟩ => rfl)
theorem bidx_v6 (r : Fin 8192) (j : Fin 1024) : idx_main_v5 (idx_main_v6 (ix2 r j)) = ix1 j :=
  funext fun a => Fin.ext (by match a with | ⟨0, _⟩ => rfl)
theorem lidx_v9 (r : Fin 8192) (q : Fin 4) (k : Fin 1024) : lidx_main_v9 (ix2 r q) k = ix2 r k :=
  funext fun a => Fin.ext (by match a with | ⟨0, _⟩ => rfl | ⟨1, _⟩ => rfl)
theorem ridx_v9 (r : Fin 8192) (q : Fin 4) (k : Fin 1024) : ridx_main_v9 (ix2 r q) k = ix2 k q :=
  funext fun a => Fin.ext (by match a with | ⟨0, _⟩ => rfl | ⟨1, _⟩ => rfl)
theorem bidx_v11 (r : Fin 8192) (q : Fin 4) : idx_main_v10 (idx_main_v11 (ix2 r q)) = ix1 q :=
  funext fun a => Fin.ext (by match a with | ⟨0, _⟩ => rfl)
theorem cidx_v17 (r : Fin 8192) (q : Fin 4) : idx_main_v16 (idx_main_v17 (ix2 r q)) = ix1 r :=
  funext fun a => Fin.ext (by match a with | ⟨0, _⟩ => rfl)
theorem cidx_v22 (r : Fin 8192) (q : Fin 4) : idx_main_v21 (idx_main_v22 (ix2 r q)) = ix1 r :=
  funext fun a => Fin.ext (by match a with | ⟨0, _⟩ => rfl)
theorem sidx_v20 (r : Fin 8192) (k : Fin 4) : idx_main_v20 (ix1 r) k = ix2 r k :=
  funext fun a => Fin.ext (by match a with | ⟨0, _⟩ => rfl | ⟨1, _⟩ => rfl)
theorem lidx_v24 (r : Fin 8192) (q : Fin 12) (k : Fin 1024) : lidx_main_v24 (ix2 r q) k = ix2 r k :=
  funext fun a => Fin.ext (by match a with | ⟨0, _⟩ => rfl | ⟨1, _⟩ => rfl)
theorem ridx_v24 (r : Fin 8192) (q : Fin 12) (k : Fin 1024) : ridx_main_v24 (ix2 r q) k = ix2 k q :=
  funext fun a => Fin.ext (by match a with | ⟨0, _⟩ => rfl | ⟨1, _⟩ => rfl)
theorem bidx_v26 (r : Fin 8192) (q : Fin 12) : idx_main_v25 (idx_main_v26 (ix2 r q)) = ix1 q :=
  funext fun a => Fin.ext (by match a with | ⟨0, _⟩ => rfl)

/-! ## The stages -/

/-- The first affine layer. -/
theorem first_layer (r : Fin 8192) (j : Fin 1024) :
    val_main_v3 (F := Ideal) x0 x1 x2 (ix2 r j) = Net.hid1 (Net.rowAt x0 r) (Net.mat x1) (Net.vec x2) j := by
  rw [val_main_v3_apply, val_main_v0_apply, val_main_v2_apply, val_main_v1_apply, bidx_v2]
  simp only [lidx_v0, ridx_v0]
  rfl

/-- The second affine layer, rectified. -/
theorem second_layer (r : Fin 8192) (j : Fin 1024) :
    val_main_v8 (F := Ideal) x0 x1 x2 x3 x4 (ix2 r j)
      = Net.hid2 (Net.rowAt x0 r) (Net.mat x1) (Net.vec x2) (Net.mat x3) (Net.vec x4) j := by
  rw [val_main_v8_apply, val_main_v7_apply, val_main_v4_apply, val_main_v6_apply, val_main_v5_apply, bidx_v6,
    val_main_call0_v0_apply, val_main_call0_cst_apply]
  simp only [lidx_v4, ridx_v4, first_layer]
  rfl

/-- The four logits. -/
theorem logits (r : Fin 8192) (q : Fin 4) :
    val_main_v12 (F := Ideal) x0 x1 x2 x3 x4 x5 x6 (ix2 r q)
      = Net.logit (Net.rowAt x0 r) (Net.mat x1) (Net.vec x2) (Net.mat x3) (Net.vec x4) (Net.mat x5) (Net.vec x6) q := by
  rw [val_main_v12_apply, val_main_v9_apply, val_main_v11_apply, val_main_v10_apply, bidx_v11]
  simp only [lidx_v9, ridx_v9, second_layer]
  rfl

/-- The host's maximum over the second axis of an `[8192, 4]` array, from `-inf`: at row `r`, the fold of `max` from
    `-inf` over the row's four entries. -/
theorem host_row_max (x : FVec Ideal S8192x4 .f32) (r : Fin 8192) :
    Host.reduce (FloatOps.maximumf (F := Ideal) (φ := .f32)) x (constant (F := Ideal) S_ .f32 0xFF800000#32)
        reducesTo_S8192x4_S8192_d1 h_S_ (ix1 r)
      = (Finset.univ : Finset (Fin 4)).fold max Net.ninfW (fun k => x (ix2 r k)) := by
  have hred : S8192x4.Reduces [1] S8192 :=
    ⟨reducesTo_S8192x4_S8192_d1.1, Nat.one_pos, reducesTo_S8192x4_S8192_d1.2⟩
  rw [Host.reduce_eq_fold_single (FloatOps.maximumf (F := Ideal) (φ := .f32)) x _ reducesTo_S8192x4_S8192_d1 hred h_S_]
  have hf : (x ∘ hred.lift (ix1 r)) = fun k : Fin 4 => x (ix2 r k) := funext fun k => congrArg x (lift_row hred r k)
  exact congrArg (fun f => Finset.fold max Net.ninfW f (Finset.univ : Finset (Fin 4))) hf

/-- The row maximum of the logits: that fold over the network's four logits of row `r`. -/
theorem row_max (r : Fin 8192) :
    val_main_v13 (F := Ideal) x0 x1 x2 x3 x4 x5 x6 (ix1 r)
      = (Finset.univ : Finset (Fin 4)).fold max Net.ninfW
          (Net.logit (Net.rowAt x0 r) (Net.mat x1) (Net.vec x2) (Net.mat x3) (Net.vec x4) (Net.mat x5) (Net.vec x6)) := by
  refine (host_row_max (val_main_v12 (F := Ideal) x0 x1 x2 x3 x4 x5 x6) r).trans ?_
  refine congrArg (fun g => (Finset.univ : Finset (Fin 4)).fold max Net.ninfW g) ?_
  funext k
  exact logits x0 x1 x2 x3 x4 x5 x6 r k

/-- The largest logit, taken once more against `-inf`. -/
theorem top (r : Fin 8192) :
    val_main_v15 (F := Ideal) x0 x1 x2 x3 x4 x5 x6 (ix1 r)
      = Net.top (Net.rowAt x0 r) (Net.mat x1) (Net.vec x2) (Net.mat x3) (Net.vec x4) (Net.mat x5) (Net.vec x6) := by
  rw [val_main_v15_apply, val_main_v14_apply, val_main_cst_0_apply, row_max]
  rfl

/-- The shifted exponentials. -/
theorem expo (r : Fin 8192) (q : Fin 4) :
    val_main_v19 (F := Ideal) x0 x1 x2 x3 x4 x5 x6 (ix2 r q)
      = Net.expo (Net.rowAt x0 r) (Net.mat x1) (Net.vec x2) (Net.mat x3) (Net.vec x4) (Net.mat x5) (Net.vec x6) q := by
  rw [val_main_v19_apply, val_main_v18_apply, logits, val_main_v17_apply, val_main_v16_apply, cidx_v17, top]
  rfl

/-- Their sum over the row. -/
theorem expo_sum (r : Fin 8192) :
    val_main_v20 (F := Ideal) x0 x1 x2 x3 x4 x5 x6 (ix1 r)
      = ∑ k : Fin 4, Net.expo (Net.rowAt x0 r) (Net.mat x1) (Net.vec x2) (Net.mat x3) (Net.vec x4) (Net.mat x5) (Net.vec x6) k := by
  rw [val_main_v20_apply, val_main_cst_1_apply]
  show Ideal.ofBits .f32 0x00000000#32 + _ = _
  rw [Ideal.ofBits_zero_f32, zero_add]
  refine Finset.sum_congr rfl fun k _ => ?_
  rw [sidx_v20, expo]

/-- THE CLASS PROBABILITIES: the reference's first result at `(r, q)`. -/
theorem probs (r : Fin 8192) (q : Fin 4) :
    val_main_v23 (F := Ideal) x0 x1 x2 x3 x4 x5 x6 (ix2 r q)
      = Net.prob (Net.rowAt x0 r) (Net.mat x1) (Net.vec x2) (Net.mat x3) (Net.vec x4) (Net.mat x5) (Net.vec x6) q := by
  rw [val_main_v23_apply, expo, val_main_v22_apply, val_main_v21_apply, cidx_v22, expo_sum]
  rfl

/-- THE BOX COORDINATES: the reference's second result at `(r, q)`. -/
theorem boxes (r : Fin 8192) (q : Fin 12) :
    val_main_v27 (F := Ideal) x0 x1 x2 x3 x4 x7 x8 (ix2 r q)
      = Net.box (Net.rowAt x0 r) (Net.mat x1) (Net.vec x2) (Net.mat x3) (Net.vec x4) (Net.mat x7) (Net.vec x8) q := by
  rw [val_main_v27_apply, val_main_v24_apply, val_main_v26_apply, val_main_v25_apply, bidx_v26]
  simp only [lidx_v24, ridx_v24, second_layer]
  rfl

end Cert.ReferenceIdeal.RefValue

end
-- ==== Proof.lean ====
/-
  The claim: the kernel and its idealization run and leave their arguments unchanged; the idealization rewrote
  nothing; and on the extended reals the idealized kernel and the idealized reference compute the same two arrays.

  Both programs are one network applied to each of the 8192 feature rows: two affine layers with no nonlinearity
  between them, a rectifier, then a softmax over four logits and an affine map to twelve box coordinates. The
  reference computes it on whole arrays. The kernel computes it 128 rows at a time; within a block it accumulates
  the first layer's 12544-term products in 14 chunks of 896 terms, starting from zero, and it writes the two heads
  side by side into one zero-filled 128-wide row that the host slices apart again.

  What joins the two sides: a change of float format is the identity on extended reals; a matrix product into a zero
  accumulator is the plain sum over the contracted axis on both sides; a sum over 12544 terms is the sum over 14
  chunks of the sums over each chunk's 896 terms (a regrouping in a commutative monoid — it holds at the
  infinities too, so the finiteness of the inputs is never used); `0 + s = s`; and both sides take a row's maximum
  as the same fold of `max` from `-inf`. The tiling by 128 rows changes nothing: every row is processed alone.
-/
import proofs.«123283_j49048526521000_2_alg».proof.Defs
import proofs.«123283_j49048526521000_2_alg».proof.Proof.Gen.Kernel
import proofs.«123283_j49048526521000_2_alg».proof.Proof.Gen.Kernel.Frame
import proofs.«123283_j49048526521000_2_alg».proof.Proof.Gen.KernelIdeal
import proofs.«123283_j49048526521000_2_alg».proof.Proof.Gen.KernelIdeal.Frame
import proofs.«123283_j49048526521000_2_alg».proof.Proof.Gen.ReferenceIdeal
import proofs.«123283_j49048526521000_2_alg».proof.Proof.Gen.ReferenceIdeal.Run
import proofs.«123283_j49048526521000_2_alg».proof.Proof.Gen.ReferenceIdeal.Read
import proofs.«123283_j49048526521000_2_alg».proof.Proof.Gen.Pre_finite_inputs
import proofs.«123283_j49048526521000_2_alg».proof.Proof.KernelValue
import proofs.«123283_j49048526521000_2_alg».proof.Proof.RefValue
import Idealize.ShloMosaic.Adequacy
import Idealize.ShloMosaic.Init

noncomputable section

namespace Cert.Proof

open Idealize.ShloMosaic Idealize.ShloMosaic.ValueIdx Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's run, with its results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- On the extended reals the idealized kernel's results are the network's class probabilities and box coordinates of
    every feature row, and so are the reference's, of arguments that agree. -/
theorem algebraic : Cert.algebraic_KernelIdeal_ReferenceIdeal := by
  intro m ρ m' ρ' _ hagree
  refine ⟨fun c => Cert.KernelIdeal.KernelValue.resultProbs m c, fun c => Cert.KernelIdeal.KernelValue.resultBoxes m c,
    Cert.KernelIdeal.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8⟩ := hagree c
    rw [Cert.ReferenceIdeal.Read.val_main_v23_eq, a0, a1, a2, a3, a4, a5, a6]
    funext i
    obtain ⟨r, q, rfl⟩ : ∃ (r : Fin 8192) (q : Fin 4), i = ix2 r q := ⟨i 0, i 1, eq_ix2 i⟩
    exact Cert.ReferenceIdeal.RefValue.probs _ _ _ _ _ _ _ r q
  · obtain ⟨a0, a1, a2, a3, a4, a5, a6, a7, a8⟩ := hagree c
    rw [Cert.ReferenceIdeal.Read.val_main_v27_eq, a0, a1, a2, a3, a4, a7, a8]
    funext i
    obtain ⟨r, q, rfl⟩ : ∃ (r : Fin 8192) (q : Fin 12), i = ix2 r q := ⟨i 0, i 1, eq_ix2 i⟩
    exact Cert.ReferenceIdeal.RefValue.boxes _ _ _ _ _ _ _ r q

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
